-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2x14x14 : Shape := ⟨4, ![16384, 2, 14, 14]⟩
abbrev S4608x392 : Shape := ⟨2, ![4608, 392]⟩
abbrev S512x1 : Shape := ⟨2, ![512, 1]⟩
abbrev S256x512 : Shape := ⟨2, ![256, 512]⟩
abbrev S256x1 : Shape := ⟨2, ![256, 1]⟩
abbrev S256x64 : Shape := ⟨2, ![256, 64]⟩
abbrev S8x256 : Shape := ⟨2, ![8, 256]⟩
abbrev S1x1 : Shape := ⟨2, ![1, 1]⟩
abbrev S_ : Shape := ⟨0, ![]⟩

class Facts : Prop where
  bcast_S_S16384x2x14x14 : S_.BroadcastsInDim S16384x2x14x14 (![] : Fin 0 → Fin S16384x2x14x14.rank)
  reducesTo_S16384x2x14x14_S_d0_1_2_3 : S16384x2x14x14.ReducesTo [0, 1, 2, 3] S_
  h_S_ : 0 < S_.numel
  bitsLt_bf16_f32 : FTy.bits .bf16 < FTy.bits .f32
  bcast_S_S4608x392 : S_.BroadcastsInDim S4608x392 (![] : Fin 0 → Fin S4608x392.rank)
  reducesTo_S4608x392_S_d0_1 : S4608x392.ReducesTo [0, 1] S_
  bcast_S_S512x1 : S_.BroadcastsInDim S512x1 (![] : Fin 0 → Fin S512x1.rank)
  reducesTo_S512x1_S_d0_1 : S512x1.ReducesTo [0, 1] S_
  bcast_S_S256x512 : S_.BroadcastsInDim S256x512 (![] : Fin 0 → Fin S256x512.rank)
  reducesTo_S256x512_S_d0_1 : S256x512.ReducesTo [0, 1] S_
  bcast_S_S256x1 : S_.BroadcastsInDim S256x1 (![] : Fin 0 → Fin S256x1.rank)
  reducesTo_S256x1_S_d0_1 : S256x1.ReducesTo [0, 1] S_
  bcast_S_S256x64 : S_.BroadcastsInDim S256x64 (![] : Fin 0 → Fin S256x64.rank)
  reducesTo_S256x64_S_d0_1 : S256x64.ReducesTo [0, 1] S_
  bcast_S_S8x256 : S_.BroadcastsInDim S8x256 (![] : Fin 0 → Fin S8x256.rank)
  reducesTo_S8x256_S_d0_1 : S8x256.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S8x256 .bf16) (main_arg8 : FVec F S1x1 .f32) (main_v31 : IVec S_ 1) (main_v34 : IVec S256x1 1) : IVec S_ 1 :=
  let main_c_11 : IVec S_ 1 := constantI S_ 1 1#1
  let main_v35 : IVec S_ 1 := (fun x v => Host.reduce IntOp.andi x v reducesTo_S256x1_S_d0_1 h_S_) main_v34 main_c_11
  let main_v36 : IVec S_ 1 := andi main_v31 main_v35
  let main_v37 : FVec F S8x256 .f32 := (extf .f32 · bitsLt_bf16_f32) main_arg7
  let main_v38 : FVec F S8x256 .f32 := Host.absf main_v37
  let main_cst_12 : FVec F S_ .f32 := constant S_ .f32 0x7F800000#32
  let main_v39 : FVec F S8x256 .f32 := broadcastInDim S8x256 ![] bcast_S_S8x256 main_cst_12
  let main_v40 : IVec S8x256 1 := cmpf .olt main_v38 main_v39
  let main_c_13 : IVec S_ 1 := constantI S_ 1 1#1
  let main_v41 : IVec S_ 1 := (fun x v => Host.reduce IntOp.andi x v reducesTo_S8x256_S_d0_1 h_S_) main_v40 main_c_13
  let main_v42 : IVec S_ 1 := andi main_v36 main_v41
  let main_v43 : FVec F S1x1 .f32 := Host.absf main_arg8
  let main_cst_14 : FVec F S_ .f32 := constant S_ .f32 0x7F800000#32
  let main_v44 : FVec F S1x1 .f32 := broadcastInDim S1x1 ![] bcast_S_S1x1 main_cst_14
  let main_v45 : IVec S1x1 1 := cmpf .olt main_v43 main_v44
  let main_c_15 : IVec S_ 1 := constantI S_ 1 1#1
  let main_v46 : IVec S_ 1 := (fun x v => Host.reduce IntOp.andi x v reducesTo_S1x1_S_d0_1 h_S_) main_v45 main_c_15
  let main_v47 : IVec S_ 1 := andi main_v42 main_v46
  main_v47

def fn_part1 {F : FTy → Type} [FloatOps F] (main_arg4 : FVec F S256x1 .f32) (main_arg5 : FVec F S256x64 .bf16) (main_arg6 : FVec F S256x1 .f32) (main_arg7 : FVec F S8x256 .bf16) (main_arg8 : FVec F S1x1 .f32) (main_v14 : IVec S_ 1) (main_v16 : FVec F S256x512 .f32) (main_cst_4 : FVec F S_ .f32) : IVec S_ 1 :=
  let main_v17 : FVec F S256x512 .f32 := broadcastInDim S256x512 ![] bcast_S_S256x512 main_cst_4
  let main_v18 : IVec S256x512 1 := cmpf .olt main_v16 main_v17
  let main_c_5 : IVec S_ 1 := constantI S_ 1 1#1
  let main_v19 : IVec S_ 1 := (fun x v => Host.reduce IntOp.andi x v reducesTo_S256x512_S_d0_1 h_S_) main_v18 main_c_5
  let main_v20 : IVec S_ 1 := andi main_v14 main_v19
  let main_v21 : FVec F S256x1 .f32 := Host.absf main_arg4
  let main_cst_6 : FVec F S_ .f32 := constant S_ .f32 0x7F800000#32
  let main_v22 : FVec F S256x1 .f32 := broadcastInDim S256x1 ![] bcast_S_S256x1 main_cst_6
  let main_v23 : IVec S256x1 1 := cmpf .olt main_v21 main_v22
  let main_c_7 : IVec S_ 1 := constantI S_ 1 1#1
  let main_v24 : IVec S_ 1 := (fun x v => Host.reduce IntOp.andi x v reducesTo_S256x1_S_d0_1 h_S_) main_v23 main_c_7
  let main_v25 : IVec S_ 1 := andi main_v20 main_v24
  let main_v26 : FVec F S256x64 .f32 := (extf .f32 · bitsLt_bf16_f32) main_arg5
  let main_v27 : FVec F S256x64 .f32 := Host.absf main_v26
  let main_cst_8 : FVec F S_ .f32 := constant S_ .f32 0x7F800000#32
  let main_v28 : FVec F S256x64 .f32 := broadcastInDim S256x64 ![] bcast_S_S256x64 main_cst_8
  let main_v29 : IVec S256x64 1 := cmpf .olt main_v27 main_v28
  let main_c_9 : IVec S_ 1 := constantI S_ 1 1#1
  let main_v30 : IVec S_ 1 := (fun x v => Host.reduce IntOp.andi x v reducesTo_S256x64_S_d0_1 h_S_) main_v29 main_c_9
  let main_v31 : IVec S_ 1 := andi main_v25 main_v30
  let main_v32 : FVec F S256x1 .f32 := Host.absf main_arg6
  let main_cst_10 : FVec F S_ .f32 := constant S_ .f32 0x7F800000#32
  let main_v33 : FVec F S256x1 .f32 := broadcastInDim S256x1 ![] bcast_S_S256x1 main_cst_10
  let main_v34 : IVec S256x1 1 := cmpf .olt main_v32 main_v33
  fn_part2 (F := F) main_arg7 main_arg8 main_v31 main_v34

def fn {F : FTy → Type} [FloatOps F] (main_arg0 : FVec F S16384x2x14x14 .f32) (main_arg1 : FVec F S4608x392 .bf16) (main_arg2 : FVec F S512x1 .f32) (main_arg3 : FVec F S256x512 .bf16) (main_arg4 : FVec F S256x1 .f32) (main_arg5 : FVec F S256x64 .bf16) (main_arg6 : FVec F S256x1 .f32) (main_arg7 : FVec F S8x256 .bf16) (main_arg8 : FVec F S1x1 .f32) : IVec S_ 1 :=
  let main_v0 : FVec F S16384x2x14x14 .f32 := Host.absf main_arg0
  let main_cst : FVec F S_ .f32 := constant S_ .f32 0x7F800000#32
  let main_v1 : FVec F S16384x2x14x14 .f32 := broadcastInDim S16384x2x14x14 ![] bcast_S_S16384x2x14x14 main_cst
  let main_v2 : IVec S16384x2x14x14 1 := cmpf .olt main_v0 main_v1
  let main_c : IVec S_ 1 := constantI S_ 1 1#1
  let main_v3 : IVec S_ 1 := (fun x v => Host.reduce IntOp.andi x v reducesTo_S16384x2x14x14_S_d0_1_2_3 h_S_) main_v2 main_c
  let main_v4 : FVec F S4608x392 .f32 := (extf .f32 · bitsLt_bf16_f32) main_arg1
  let main_v5 : FVec F S4608x392 .f32 := Host.absf main_v4
  let main_cst_0 : FVec F S_ .f32 := constant S_ .f32 0x7F800000#32
  let main_v6 : FVec F S4608x392 .f32 := broadcastInDim S4608x392 ![] bcast_S_S4608x392 main_cst_0
  let main_v7 : IVec S4608x392 1 := cmpf .olt main_v5 main_v6
  let main_c_1 : IVec S_ 1 := constantI S_ 1 1#1
  let main_v8 : IVec S_ 1 := (fun x v => Host.reduce IntOp.andi x v reducesTo_S4608x392_S_d0_1 h_S_) main_v7 main_c_1
  let main_v9 : IVec S_ 1 := andi main_v3 main_v8
  let main_v10 : FVec F S512x1 .f32 := Host.absf main_arg2
  let main_cst_2 : FVec F S_ .f32 := constant S_ .f32 0x7F800000#32
  let main_v11 : FVec F S512x1 .f32 := broadcastInDim S512x1 ![] bcast_S_S512x1 main_cst_2
  let main_v12 : IVec S512x1 1 := cmpf .olt main_v10 main_v11
  let main_c_3 : IVec S_ 1 := constantI S_ 1 1#1
  let main_v13 : IVec S_ 1 := (fun x v => Host.reduce IntOp.andi x v reducesTo_S512x1_S_d0_1 h_S_) main_v12 main_c_3
  let main_v14 : IVec S_ 1 := andi main_v9 main_v13
  let main_v15 : FVec F S256x512 .f32 := (extf .f32 · bitsLt_bf16_f32) main_arg3
  let main_v16 : FVec F S256x512 .f32 := Host.absf main_v15
  let main_cst_4 : FVec F S_ .f32 := constant S_ .f32 0x7F800000#32
  fn_part1 (F := F) main_arg4 main_arg5 main_arg6 main_arg7 main_arg8 main_v14 main_v16 main_cst_4
-- ==== Kernel.lean ====
abbrev S16384x2x14x14 : Shape := ⟨4, ![16384, 2, 14, 14]⟩
abbrev S4608x392 : Shape := ⟨2, ![4608, 392]⟩
abbrev S512x1 : Shape := ⟨2, ![512, 1]⟩
abbrev S256x512 : Shape := ⟨2, ![256, 512]⟩
abbrev S256x1 : Shape := ⟨2, ![256, 1]⟩
abbrev S256x64 : Shape := ⟨2, ![256, 64]⟩
abbrev S8x256 : Shape := ⟨2, ![8, 256]⟩
abbrev S1x1 : Shape := ⟨2, ![1, 1]⟩
abbrev S14x14x2x16384 : Shape := ⟨4, ![14, 14, 2, 16384]⟩
abbrev S392x16384 : Shape := ⟨2, ![392, 16384]⟩
abbrev S4608x2x14x14 : Shape := ⟨4, ![4608, 2, 14, 14]⟩
abbrev S4608x14x14x2 : Shape := ⟨4, ![4608, 14, 14, 2]⟩
abbrev S1x16384 : Shape := ⟨2, ![1, 16384]⟩
abbrev S392x256 : Shape := ⟨2, ![392, 256]⟩
abbrev S1x256 : Shape := ⟨2, ![1, 256]⟩
abbrev S512x392 : Shape := ⟨2, ![512, 392]⟩
abbrev S512x256 : Shape := ⟨2, ![512, 256]⟩
abbrev S256x256 : Shape := ⟨2, ![256, 256]⟩
abbrev S64x256 : Shape := ⟨2, ![64, 256]⟩
abbrev S16384 : Shape := ⟨1, ![16384]⟩
abbrev S16384x1 : Shape := ⟨2, ![16384, 1]⟩

abbrev nBuf : Space → Nat
  | .hbm => 18
  | .vmem => 12
  | .smem => 0
  | _ => 0

abbrev bufTy : (tb : Table) → Fin (tcTables nBuf tb) → BufTy
  | .hbm, ⟨0, _⟩ => ⟨S16384x2x14x14, .f32⟩
  | .hbm, ⟨1, _⟩ => ⟨S4608x392, .bf16⟩
  | .hbm, ⟨2, _⟩ => ⟨S512x1, .f32⟩
  | .hbm, ⟨3, _⟩ => ⟨S256x512, .bf16⟩
  | .hbm, ⟨4, _⟩ => ⟨S256x1, .f32⟩
  | .hbm, ⟨5, _⟩ => ⟨S256x64, .bf16⟩
  | .hbm, ⟨6, _⟩ => ⟨S256x1, .f32⟩
  | .hbm, ⟨7, _⟩ => ⟨S8x256, .bf16⟩
  | .hbm, ⟨8, _⟩ => ⟨S1x1, .f32⟩
  | .hbm, ⟨9, _⟩ => ⟨S14x14x2x16384, .f32⟩
  | .hbm, ⟨10, _⟩ => ⟨S392x16384, .f32⟩
  | .hbm, ⟨11, _⟩ => ⟨S392x16384, .bf16⟩
  | .hbm, ⟨12, _⟩ => ⟨S4608x2x14x14, .bf16⟩
  | .hbm, ⟨13, _⟩ => ⟨S4608x14x14x2, .bf16⟩
  | .hbm, ⟨14, _⟩ => ⟨S4608x392, .bf16⟩
  | .hbm, ⟨15, _⟩ => ⟨S1x16384, .f32⟩
  | .hbm, ⟨16, _⟩ => ⟨S16384, .f32⟩
  | .hbm, ⟨17, _⟩ => ⟨S16384x1, .f32⟩
  | .local _ .vmem, ⟨0, _⟩ => ⟨S392x256, .bf16⟩
  | .local _ .vmem, ⟨1, _⟩ => ⟨S392x256, .bf16⟩
  | .local _ .vmem, ⟨2, _⟩ => ⟨S4608x392, .bf16⟩
  | .local _ .vmem, ⟨3, _⟩ => ⟨S512x1, .f32⟩
  | .local _ .vmem, ⟨4, _⟩ => ⟨S256x512, .bf16⟩
  | .local _ .vmem, ⟨5, _⟩ => ⟨S256x1, .f32⟩
  | .local _ .vmem, ⟨6, _⟩ => ⟨S256x64, .bf16⟩
  | .local _ .vmem, ⟨7, _⟩ => ⟨S256x1, .f32⟩
  | .local _ .vmem, ⟨8, _⟩ => ⟨S8x256, .bf16⟩
  | .local _ .vmem, ⟨9, _⟩ => ⟨S1x1, .f32⟩
  | .local _ .vmem, ⟨10, _⟩ => ⟨S1x256, .f32⟩
  | .local _ .vmem, ⟨11, _⟩ => ⟨S1x256, .f32⟩
  | _, _ => ⟨S16384x2x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S392x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x392 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S16384x2x14x14_S14x14x2x16384_2_3_1_0 : S16384x2x14x14.Transposes [2, 3, 1, 0] S14x14x2x16384
  shapeCasts_S14x14x2x16384_S392x16384 : S14x14x2x16384.ShapeCasts S392x16384
  bitsLt_bf16_f32 : FTy.bits .bf16 < FTy.bits .f32
  shapeCasts_S4608x392_S4608x2x14x14 : S4608x392.ShapeCasts S4608x2x14x14
  transposes_S4608x2x14x14_S4608x14x14x2_0_2_3_1 : S4608x2x14x14.Transposes [0, 2, 3, 1] S4608x14x14x2
  shapeCasts_S4608x14x14x2_S4608x392 : S4608x14x14x2.ShapeCasts S4608x392
  inb_S392x256_S392x256_0_0 : ∀ a, (![0, 0] : Fin 2 → Nat) a + S392x256.size a ≤ S392x256.size a
  h_S392x256 : 0 < S392x256.numel
  shapeCasts_S392x256_S392x256 : S392x256.ShapeCasts S392x256
  inb_S4608x392_S512x392_0_0 : ∀ a, (![0, 0] : Fin 2 → Nat) a + S512x392.size a ≤ S4608x392.size a
  h_S512x392 : 0 < S512x392.numel
  shapeCasts_S512x392_S512x392 : S512x392.ShapeCasts S512x392
  inb_S4608x392_S512x392_512_0 : ∀ a, (![512, 0] : Fin 2 → Nat) a + S512x392.size a ≤ S4608x392.size a
  inb_S4608x392_S512x392_1024_0 : ∀ a, (![1024, 0] : Fin 2 → Nat) a + S512x392.size a ≤ S4608x392.size a
  inb_S4608x392_S512x392_1536_0 : ∀ a, (![1536, 0] : Fin 2 → Nat) a + S512x392.size a ≤ S4608x392.size a
  inb_S4608x392_S512x392_2048_0 : ∀ a, (![2048, 0] : Fin 2 → Nat) a + S512x392.size a ≤ S4608x392.size a
  inb_S4608x392_S512x392_2560_0 : ∀ a, (![2560, 0] : Fin 2 → Nat) a + S512x392.size a ≤ S4608x392.size a
  inb_S4608x392_S512x392_3072_0 : ∀ a, (![3072, 0] : Fin 2 → Nat) a + S512x392.size a ≤ S4608x392.size a
  inb_S4608x392_S512x392_3584_0 : ∀ a, (![3584, 0] : Fin 2 → Nat) a + S512x392.size a ≤ S4608x392.size a
  inb_S4608x392_S512x392_4096_0 : ∀ a, (![4096, 0] : Fin 2 → Nat) a + S512x392.size a ≤ S4608x392.size a
  inb_S512x1_S512x1_0_0 : ∀ a, (![0, 0] : Fin 2 → Nat) a + S512x1.size a ≤ S512x1.size a
  h_S512x1 : 0 < S512x1.numel
  broadcasts_S512x1_S512x256 : S512x1.Broadcasts S512x256
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  broadcasts_S256x1_S256x256 : S256x1.Broadcasts S256x256
  slices_S256x256_o0_0_S64x256 : S256x256.Slices ![0, 0] S64x256
  slices_S256x256_o64_0_S64x256 : S256x256.Slices ![64, 0] S64x256
  slices_S256x256_o128_0_S64x256 : S256x256.Slices ![128, 0] S64x256
  slices_S256x256_o192_0_S64x256 : S256x256.Slices ![192, 0] S64x256
  inb_S256x64_S256x64_0_0 : ∀ a, (![0, 0] : Fin 2 → Nat) a + S256x64.size a ≤ S256x64.size a
  h_S256x64 : 0 < S256x64.numel
  inb_S8x256_S8x256_0_0 : ∀ a, (![0, 0] : Fin 2 → Nat) a + S8x256.size a ≤ S8x256.size a
  h_S8x256 : 0 < S8x256.numel
  slices_S8x256_o0_0_S1x256 : S8x256.Slices ![0, 0] S1x256
  inb_S1x1_S1x1_0_0 : ∀ a, (![0, 0] : Fin 2 → Nat) a + S1x1.size a ≤ S1x1.size a
  h_S1x1 : 0 < S1x1.numel
  broadcasts_S1x1_S1x256 : S1x1.Broadcasts S1x256
  inb_S1x256_S1x256_0_0 : ∀ a, (![0, 0] : Fin 2 → Nat) a + S1x256.size a ≤ S1x256.size a
  h_S1x256 : 0 < S1x256.numel
  shapeCasts_S1x16384_S16384 : S1x16384.ShapeCasts S16384
  shapeCasts_S16384_S16384x1 : S16384.ShapeCasts S16384x1
  dot_S512x392_S392x256_S512x256_1_0_0_1_n_n_wf : DotDims.WF S512x392 S392x256 S512x256 [1] [0] [0] [1] [] []
  dot_S256x512_S512x256_S256x256_1_0_0_1_n_n_wf : DotDims.WF S256x512 S512x256 S256x256 [1] [0] [0] [1] [] []
  dot_S256x64_S64x256_S256x256_1_0_0_1_n_n_wf : DotDims.WF S256x64 S64x256 S256x256 [1] [0] [0] [1] [] []
  dot_S8x256_S256x256_S8x256_1_0_0_1_n_n_wf : DotDims.WF S8x256 S256x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S392x256.size a ≤ S392x16384.size a
  hwx0_0 : ∀ i : grid0.Coords, EltTy.bits .bf16 = 32 ∨ (Rect.block (s := S392x16384) S392x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4608x392.size a ≤ S4608x392.size a
  hwx0_1 : ∀ i : grid0.Coords, EltTy.bits .bf16 = 32 ∨ (Rect.block (s := S4608x392) S4608x392.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .bf16 = 32 ∨ (Rect.block (s := S8x256) S8x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x16384.size a
  hwx0_9 : ∀ i : grid0.Coords, EltTy.bits .f32 = 32 ∨ (Rect.block (s := S1x16384) S1x256.size (cc0_transform_9 i) (hinb0_9 i)).WholeWords (EltTy.packing .f32)

variable [Facts₀]

def dot_S512x392_S392x256_S512x256_1_0_0_1_n_n : DotDims S512x392 S392x256 S512x256 where
  lhsContracting := [1]
  rhsContracting := [0]
  lhsNonContracting := [0]
  rhsNonContracting := [1]
  lhsBatch := []
  rhsBatch := []
  wf := dot_S512x392_S392x256_S512x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S8x256_S256x256_S8x256_1_0_0_1_n_n : DotDims S8x256 S256x256 S8x256 where
  lhsContracting := [1]
  rhsContracting := [0]
  lhsNonContracting := [0]
  rhsNonContracting := [1]
  lhsBatch := []
  rhsBatch := []
  wf := dot_S8x256_S256x256_S8x256_1_0_0_1_n_n_wf

abbrev win0_0 : Pipeline.Window sig grid0 :=
  Pipeline.Window.ofSpec (Memref.whole main_v2) S392x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4608x392.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x2x14x14 : Shape := ⟨4, ![16384, 2, 14, 14]⟩
abbrev S4608x392 : Shape := ⟨2, ![4608, 392]⟩
abbrev S512x1 : Shape := ⟨2, ![512, 1]⟩
abbrev S256x512 : Shape := ⟨2, ![256, 512]⟩
abbrev S256x1 : Shape := ⟨2, ![256, 1]⟩
abbrev S256x64 : Shape := ⟨2, ![256, 64]⟩
abbrev S8x256 : Shape := ⟨2, ![8, 256]⟩
abbrev S1x1 : Shape := ⟨2, ![1, 1]⟩
abbrev S16384x392 : Shape := ⟨2, ![16384, 392]⟩
abbrev S392x16384 : Shape := ⟨2, ![392, 16384]⟩
abbrev S_ : Shape := ⟨0, ![]⟩
abbrev S1x16384 : Shape := ⟨2, ![1, 16384]⟩
abbrev S392x128 : Shape := ⟨2, ![392, 128]⟩
abbrev S1x128 : Shape := ⟨2, ![1, 128]⟩
abbrev S512x128 : Shape := ⟨2, ![512, 128]⟩
abbrev S512x392 : Shape := ⟨2, ![512, 392]⟩
abbrev S256x128 : Shape := ⟨2, ![256, 128]⟩
abbrev S64x128 : Shape := ⟨2, ![64, 128]⟩
abbrev S8x128 : Shape := ⟨2, ![8, 128]⟩
abbrev S16384 : Shape := ⟨1, ![16384]⟩
abbrev S16384x1 : Shape := ⟨2, ![16384, 1]⟩

abbrev nBuf : Space → Nat
  | .hbm => 18
  | .vmem => 13
  | .smem => 0
  | _ => 0

abbrev bufTy : (tb : Table) → Fin (tcTables nBuf tb) → BufTy
  | .hbm, ⟨0, _⟩ => ⟨S16384x2x14x14, .f32⟩
  | .hbm, ⟨1, _⟩ => ⟨S4608x392, .bf16⟩
  | .hbm, ⟨2, _⟩ => ⟨S512x1, .f32⟩
  | .hbm, ⟨3, _⟩ => ⟨S256x512, .bf16⟩
  | .hbm, ⟨4, _⟩ => ⟨S256x1, .f32⟩
  | .hbm, ⟨5, _⟩ => ⟨S256x64, .bf16⟩
  | .hbm, ⟨6, _⟩ => ⟨S256x1, .f32⟩
  | .hbm, ⟨7, _⟩ => ⟨S8x256, .bf16⟩
  | .hbm, ⟨8, _⟩ => ⟨S1x1, .f32⟩
  | .hbm, ⟨9, _⟩ => ⟨S16384x392, .f32⟩
  | .hbm, ⟨10, _⟩ => ⟨S392x16384, .f32⟩
  | .hbm, ⟨11, _⟩ => ⟨S392x16384, .bf16⟩
  | .hbm, ⟨12, _⟩ => ⟨S_, .i32⟩
  | .hbm, ⟨13, _⟩ => ⟨S_, .bf16⟩
  | .hbm, ⟨14, _⟩ => ⟨S392x16384, .bf16⟩
  | .hbm, ⟨15, _⟩ => ⟨S1x16384, .f32⟩
  | .hbm, ⟨16, _⟩ => ⟨S16384, .f32⟩
  | .hbm, ⟨17, _⟩ => ⟨S16384x1, .f32⟩
  | .local _ .vmem, ⟨0, _⟩ => ⟨S392x128, .bf16⟩
  | .local _ .vmem, ⟨1, _⟩ => ⟨S392x128, .bf16⟩
  | .local _ .vmem, ⟨2, _⟩ => ⟨S4608x392, .bf16⟩
  | .local _ .vmem, ⟨3, _⟩ => ⟨S512x1, .f32⟩
  | .local _ .vmem, ⟨4, _⟩ => ⟨S256x512, .bf16⟩
  | .local _ .vmem, ⟨5, _⟩ => ⟨S256x1, .f32⟩
  | .local _ .vmem, ⟨6, _⟩ => ⟨S256x64, .bf16⟩
  | .local _ .vmem, ⟨7, _⟩ => ⟨S256x1, .f32⟩
  | .local _ .vmem, ⟨8, _⟩ => ⟨S8x256, .bf16⟩
  | .local _ .vmem, ⟨9, _⟩ => ⟨S1x1, .f32⟩
  | .local _ .vmem, ⟨10, _⟩ => ⟨S1x128, .f32⟩
  | .local _ .vmem, ⟨11, _⟩ => ⟨S1x128, .f32⟩
  | .local _ .vmem, ⟨12, _⟩ => ⟨S512x128, .f32⟩
  | _, _ => ⟨S16384x2x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S392x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x392 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S16384x2x14x14_S16384x392 : S16384x2x14x14.ShapeCasts S16384x392
  transposes_S16384x392_S392x16384_1_0 : S16384x392.Transposes [1, 0] S392x16384
  bitsLt_bf16_f32 : FTy.bits .bf16 < FTy.bits .f32
  pads_S392x16384_S392x16384_000_000 : S392x16384.Pads (![0, 0] : Fin 2 → Nat) ![0, 0] ![0, 0] S392x16384
  h_S_ : 0 < S_.numel
  inb_S392x128_S392x128_0_0 : ∀ a, (![0, 0] : Fin 2 → Nat) a + S392x128.size a ≤ S392x128.size a
  h_S392x128 : 0 < S392x128.numel
  shapeCasts_S392x128_S392x128 : S392x128.ShapeCasts S392x128
  inb_S4608x392_S512x392_0_0 : ∀ a, (![0, 0] : Fin 2 → Nat) a + S512x392.size a ≤ S4608x392.size a
  h_S512x392 : 0 < S512x392.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4608x392_S512x392_512_0 : ∀ a, (![512, 0] : Fin 2 → Nat) a + S512x392.size a ≤ S4608x392.size a
  inb_S4608x392_S512x392_1024_0 : ∀ a, (![1024, 0] : Fin 2 → Nat) a + S512x392.size a ≤ S4608x392.size a
  inb_S4608x392_S512x392_1536_0 : ∀ a, (![1536, 0] : Fin 2 → Nat) a + S512x392.size a ≤ S4608x392.size a
  inb_S4608x392_S512x392_2048_0 : ∀ a, (![2048, 0] : Fin 2 → Nat) a + S512x392.size a ≤ S4608x392.size a
  inb_S4608x392_S512x392_2560_0 : ∀ a, (![2560, 0] : Fin 2 → Nat) a + S512x392.size a ≤ S4608x392.size a
  inb_S4608x392_S512x392_3072_0 : ∀ a, (![3072, 0] : Fin 2 → Nat) a + S512x392.size a ≤ S4608x392.size a
  inb_S4608x392_S512x392_3584_0 : ∀ a, (![3584, 0] : Fin 2 → Nat) a + S512x392.size a ≤ S4608x392.size a
  inb_S4608x392_S512x392_4096_0 : ∀ a, (![4096, 0] : Fin 2 → Nat) a + S512x392.size a ≤ S4608x392.size a
  inb_S512x1_S512x1_0_0 : ∀ a, (![0, 0] : Fin 2 → Nat) a + S512x1.size a ≤ S512x1.size a
  h_S512x1 : 0 < S512x1.numel
  broadcasts_S512x1_S512x128 : S512x1.Broadcasts S512x128
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  broadcasts_S256x1_S256x128 : S256x1.Broadcasts S256x128
  slices_S256x128_o0_0_S64x128 : S256x128.Slices ![0, 0] S64x128
  slices_S256x128_o64_0_S64x128 : S256x128.Slices ![64, 0] S64x128
  slices_S256x128_o128_0_S64x128 : S256x128.Slices ![128, 0] S64x128
  slices_S256x128_o192_0_S64x128 : S256x128.Slices ![192, 0] S64x128
  inb_S256x64_S256x64_0_0 : ∀ a, (![0, 0] : Fin 2 → Nat) a + S256x64.size a ≤ S256x64.size a
  h_S256x64 : 0 < S256x64.numel
  inb_S8x256_S8x256_0_0 : ∀ a, (![0, 0] : Fin 2 → Nat) a + S8x256.size a ≤ S8x256.size a
  h_S8x256 : 0 < S8x256.numel
  slices_S8x128_o0_0_S1x128 : S8x128.Slices ![0, 0] S1x128
  inb_S1x1_S1x1_0_0 : ∀ a, (![0, 0] : Fin 2 → Nat) a + S1x1.size a ≤ S1x1.size a
  h_S1x1 : 0 < S1x1.numel
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x16384_S16384 : S1x16384.ShapeCasts S16384
  shapeCasts_S16384_S16384x1 : S16384.ShapeCasts S16384x1
  dot_S512x392_S392x128_S512x128_1_0_0_1_n_n_wf : DotDims.WF S512x392 S392x128 S512x128 [1] [0] [0] [1] [] []
  dot_S256x512_S512x128_S256x128_1_0_0_1_n_n_wf : DotDims.WF S256x512 S512x128 S256x128 [1] [0] [0] [1] [] []
  dot_S256x64_S64x128_S256x128_1_0_0_1_n_n_wf : DotDims.WF S256x64 S64x128 S256x128 [1] [0] [0] [1] [] []
  dot_S8x256_S256x128_S8x128_1_0_0_1_n_n_wf : DotDims.WF S8x256 S256x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S392x128.size a ≤ S392x16384.size a
  hwx0_0 : ∀ i : grid0.Coords, EltTy.bits .bf16 = 32 ∨ (Rect.block (s := S392x16384) S392x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4608x392.size a ≤ S4608x392.size a
  hwx0_1 : ∀ i : grid0.Coords, EltTy.bits .bf16 = 32 ∨ (Rect.block (s := S4608x392) S4608x392.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .bf16 = 32 ∨ (Rect.block (s := S8x256) S8x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x16384.size a
  hwx0_9 : ∀ i : grid0.Coords, EltTy.bits .f32 = 32 ∨ (Rect.block (s := S1x16384) S1x128.size (cc0_transform_9 i) (hinb0_9 i)).WholeWords (EltTy.packing .f32)

variable [Facts₀]

def dot_S512x392_S392x128_S512x128_1_0_0_1_n_n : DotDims S512x392 S392x128 S512x128 where
  lhsContracting := [1]
  rhsContracting := [0]
  lhsNonContracting := [0]
  rhsNonContracting := [1]
  lhsBatch := []
  rhsBatch := []
  wf := dot_S512x392_S392x128_S512x128_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf
def dot_S8x256_S256x128_S8x128_1_0_0_1_n_n : DotDims S8x256 S256x128 S8x128 where
  lhsContracting := [1]
  rhsContracting := [0]
  lhsNonContracting := [0]
  rhsNonContracting := [1]
  lhsBatch := []
  rhsBatch := []
  wf := dot_S8x256_S256x128_S8x128_1_0_0_1_n_n_wf

abbrev win0_0 : Pipeline.Window sig grid0 :=
  Pipeline.Window.ofSpec (Memref.whole main_v3) S392x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4608x392.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibPlainLists.lean ====
/-
  A record of dimension numbers whose six lists are those of the plain product  [n, K] x [K, w] -> [n, w]  (left
  contracted on axis 1, right on axis 0, the result's axes the left's axis 0 then the right's axis 1, no batch axes)
  has the six index facts of a plain product: one contracted axis of extent K, and the operands read at
  (p, k) and (k, q) for the result's entry (p, q) and contraction position k.
-/
import proofs.«150856_g2000702224566444_pallasbulk_1152_8_alg».proof.Proof.LibMatmulSum

noncomputable section

namespace Cert.LibMatmulSum

open Idealize.ShloMosaic

theorem Plain.of_lists {n K w : ℕ} (d : DotDims ⟨2, ![n, K]⟩ ⟨2, ![K, w]⟩ ⟨2, ![n, w]⟩)
    (hlc : d.lhsContracting = [1]) (hrc : d.rhsContracting = [0]) (hln : d.lhsNonContracting = [0])
    (hrn : d.rhsNonContracting = [1]) (hlb : d.lhsBatch = []) (hrb : d.rhsBatch = []) : Plain d := by
  have hrank : d.contr.rank = 1 := by rw [d.rank_contr, hlc]; rfl
  have keyI : ∀ (i : (⟨2, ![n, w]⟩ : Shape).Idx) (p q : Nat) (hp : p < 2) (hq : q < 2), p = q → (i ⟨p, hp⟩).val = (i ⟨q, hq⟩).val :=
    fun i p q hp hq h => by subst h; rfl
  have keyK : ∀ (k : d.contr.Idx) (p q : Nat) (hp : p < d.contr.rank) (hq : q < d.contr.rank), p = q → (k ⟨p, hp⟩).val = (k ⟨q, hq⟩).val :=
    fun k p q hp hq h => by subst h; rfl
  refine ⟨hrank, ?_, ?_, ?_, ?_, ?_⟩
  · have h0 : 0 < d.lhsContracting.length := by rw [hlc]; exact Nat.one_pos
    have e : d.lhsContracting[0] = (1 : Fin 2) := by simp [hlc]
    exact (d.size_contr 0 h0).trans (by rw [e]; rfl)
  · intro i q
    unfold DotDims.lhsIdx
    rw [dif_neg (by rw [hlb]; exact List.not_mem_nil), dif_pos (by rw [hln]; exact List.mem_singleton.mpr rfl)]
    simp only [Fin.val_cast]
    exact keyI i _ _ _ _ (by simp [hlb, hln])
  · intro i q
    unfold DotDims.lhsIdx
    rw [dif_neg (by rw [hlb]; exact List.not_mem_nil), dif_neg (by rw [hln]; exact fun h => absurd (show (1 : ℕ) = 0 from congrArg Fin.val (List.mem_singleton.mp h)) Nat.one_ne_zero)]
    simp only [Fin.val_cast]
    exact keyK q _ _ _ _ (by simp [hlc])
  · intro i q
    unfold DotDims.rhsIdx
    rw [dif_neg (by rw [hrb]; exact List.not_mem_nil), dif_neg (by rw [hrn]; exact fun h => absurd (show (0 : ℕ) = 1 from congrArg Fin.val (List.mem_singleton.mp h)) Nat.zero_ne_one)]
    simp only [Fin.val_cast]
    exact keyK q _ _ _ _ (by simp [hrc])
  · intro i q
    unfold DotDims.rhsIdx
    rw [dif_neg (by rw [hrb]; exact List.not_mem_nil), dif_pos (by rw [hrn]; exact List.mem_singleton.mpr rfl)]
    simp only [Fin.val_cast]
    exact keyI i _ _ _ _ (by simp [hlb, hln, hrn])

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibCat2.lean ====
/-
  Rank-2 arrays cut and joined, read at coordinates, for any sizes and any element type.

  * a slice of an n x w array from offsets (o0, o1), read at (p, q), is the array at (o0 + p, o1 + q);
  * two blocks stacked along the rows (n1 rows over n2 rows), read at (p, q), is the upper block at (p, q) when
    p < n1 and the lower block at (p - n1, q) otherwise;
  * two blocks set side by side along the columns (w1 columns, then w2), read at (p, q), is the left block at (p, q)
    when q < w1 and the right block at (p, q - w1) otherwise.
-/
import Idealize.ShloMosaic.Lib.Pipeline.Value
import Idealize.ShloMosaic.Lib.ValueIdx

namespace Cert.LibCat2

open Idealize.ShloMosaic Idealize.ShloMosaic.ValueIdx

variable {α : Type}

/-- A slice from offsets (o0, o1) read at (p, q) is the array at (o0 + p, o1 + q). -/
theorem slice_apply {n w n' w' : ℕ} (o0 o1 : ℕ) (x : (⟨2, ![n, w]⟩ : Shape).Idx → α)
    (h : (⟨2, ![n, w]⟩ : Shape).Slices ![o0, o1] (⟨2, ![n', w']⟩ : Shape)) (p : Fin n') (q : Fin w')
    (hp : o0 + p.val < n) (hq : o1 + q.val < w) :
    extractStridedSlice (⟨2, ![n', w']⟩ : Shape) ![o0, o1] x h (ix2 p q) = x (ix2 (⟨o0 + p.val, hp⟩ : Fin n) (⟨o1 + q.val, hq⟩ : Fin w)) :=
  extractStridedSlice_apply ![o0, o1] x h (ix2 p q) (ix2 (⟨o0 + p.val, hp⟩ : Fin n) (⟨o1 + q.val, hq⟩ : Fin w))
    (fun a => match a with
      | ⟨0, _⟩ => rfl
      | ⟨1, _⟩ => rfl)

/-- Two blocks stacked along the rows, read at (p, q): the upper block when p is one of its rows, else the lower block
    at row p - n1. -/
theorem rows_apply {n1 n2 n w : ℕ} (hn : n = n1 + n2) (x1 : (⟨2, ![n1, w]⟩ : Shape).Idx → α) (x2 : (⟨2, ![n2, w]⟩ : Shape).Idx → α)
    (h : Shape.Concatenates [(⟨2, ![n1, w]⟩ : Shape), (⟨2, ![n2, w]⟩ : Shape)] (⟨2, ![n, w]⟩ : Shape) (0 : Fin 2))
    (p : Fin n) (q : Fin w) :
    concatenate (⟨2, ![n, w]⟩ : Shape) (0 : Fin 2) [⟨(⟨2, ![n1, w]⟩ : Shape), x1⟩, ⟨(⟨2, ![n2, w]⟩ : Shape), x2⟩] h (ix2 p q)
      = if hp : p.val < n1 then x1 (ix2 (⟨p.val, hp⟩ : Fin n1) q)
        else x2 (ix2 (⟨p.val - n1, by have := p.isLt; omega⟩ : Fin n2) q) := by
  split
  · rename_i hp
    exact concatenate_pair_apply_left (0 : Fin 2) x1 x2 h (ix2 p q) rfl (ix2 (⟨p.val, hp⟩ : Fin n1) q)
      (fun b => match b with
        | ⟨0, _⟩ => rfl
        | ⟨1, _⟩ => rfl)
  · rename_i hp
    exact concatenate_pair_apply_right (0 : Fin 2) x1 x2 h (ix2 p q) rfl rfl
      (ix2 (⟨p.val - n1, by have := p.isLt; omega⟩ : Fin n2) q)
      (fun b hb => match b, hb with
        | ⟨0, _⟩, hb => absurd rfl hb
        | ⟨1, _⟩, _ => rfl)
      (by show (p.val - n1) + n1 = p.val; omega)

/-- Two blocks set side by side along the columns, read at (p, q): the left block when q is one of its columns, else
    the right block at column q - w1. -/
theorem cols_apply {w1 w2 n w : ℕ} (hw : w = w1 + w2) (x1 : (⟨2, ![n, w1]⟩ : Shape).Idx → α) (x2 : (⟨2, ![n, w2]⟩ : Shape).Idx → α)
    (h : Shape.Concatenates [(⟨2, ![n, w1]⟩ : Shape), (⟨2, ![n, w2]⟩ : Shape)] (⟨2, ![n, w]⟩ : Shape) (1 : Fin 2))
    (p : Fin n) (q : Fin w) :
    concatenate (⟨2, ![n, w]⟩ : Shape) (1 : Fin 2) [⟨(⟨2, ![n, w1]⟩ : Shape), x1⟩, ⟨(⟨2, ![n, w2]⟩ : Shape), x2⟩] h (ix2 p q)
      = if hq : q.val < w1 then x1 (ix2 p (⟨q.val, hq⟩ : Fin w1))
        else x2 (ix2 p (⟨q.val - w1, by have := q.isLt; omega⟩ : Fin w2)) := by
  split
  · rename_i hq
    exact concatenate_pair_apply_left (1 : Fin 2) x1 x2 h (ix2 p q) rfl (ix2 p (⟨q.val, hq⟩ : Fin w1))
      (fun b => match b with
        | ⟨0, _⟩ => rfl
        | ⟨1, _⟩ => rfl)
  · rename_i hq
    exact concatenate_pair_apply_right (1 : Fin 2) x1 x2 h (ix2 p q) rfl rfl
      (ix2 p (⟨q.val - w1, by have := q.isLt; omega⟩ : Fin w2))
      (fun b hb => match b, hb with
        | ⟨0, _⟩, _ => rfl
        | ⟨1, _⟩, hb => absurd rfl hb)
      (by show (q.val - w1) + w1 = q.val; omega)

end Cert.LibCat2
-- ==== Proof.Net.lean ====
/-
  The network one sample goes through, as a function of the sample's 392 features and the eight parameter arrays, on the
  extended reals.  A first layer of nine 512-row products against the features, folded by max over the nine row groups;
  a bias and a clamp at zero; a 256-row product with bias, folded by max over its four 64-row groups and clamped; a
  256-row product with bias, clamped; one row product with bias, clamped, and the hyperbolic tangent.

  The first layer sums over the 392 features, so it is unchanged when features and weight columns are permuted together:
  the one law that joins a program that lays the features out as (row, column, channel) to one that lays them out as
  (channel, row, column).  Addition on the extended reals is commutative and associative, so a finite sum may be
  re-indexed along any bijection; no finiteness of the entries is needed.
-/
import Idealize.ShloMosaic.PureOps.Ideal
import Idealize.ShloMosaic.Lib.ValueIdx

noncomputable section

namespace Cert.Net

open Idealize.ShloMosaic

/-- The clamp's constant: the value of the all-zero 32-bit word. -/
def z : EReal := Scalar.ofBits (F := Ideal) .f32 0x00000000#32

/-- Row `o + r` of a 4608-row array, for a row group starting at `o`. -/
def row (o : ℕ) (ho : o + 512 ≤ 4608) (r : Fin 512) : Fin 4608 := ⟨o + r.val, by have := r.isLt; omega⟩

/-- Row `o + j` of a 256-row array, for a row group starting at `o`. -/
def row4 (o : ℕ) (ho : o + 64 ≤ 256) (j : Fin 64) : Fin 256 := ⟨o + j.val, by have := j.isLt; omega⟩

section
variable (W1 : Fin 4608 → Fin 392 → EReal) (xc : Fin 392 → EReal)

/-- One row group of the first layer: row `o + r` of the weights against the features. -/
def tap (o : ℕ) (ho : o + 512 ≤ 4608) (r : Fin 512) : EReal := ∑ k : Fin 392, W1 (row o ho r) k * xc k

/-- The first layer: the nine row groups folded by max, left to right. -/
def pool1 (r : Fin 512) : EReal :=
  max (max (max (max (max (max (max (max (tap W1 xc 0 (by omega) r) (tap W1 xc 512 (by omega) r)) (tap W1 xc 1024 (by omega) r))
    (tap W1 xc 1536 (by omega) r)) (tap W1 xc 2048 (by omega) r)) (tap W1 xc 2560 (by omega) r)) (tap W1 xc 3072 (by omega) r))
    (tap W1 xc 3584 (by omega) r)) (tap W1 xc 4096 (by omega) r)
end

section
variable (b1 : Fin 512 → EReal) (W2 : Fin 256 → Fin 512 → EReal) (b2 : Fin 256 → EReal)
  (F1 : Fin 256 → Fin 64 → EReal) (fb1 : Fin 256 → EReal) (F2 : Fin 256 → EReal) (fb2 : EReal) (P : Fin 512 → EReal)

/-- Bias and clamp after the first layer. -/
def a1 (k : Fin 512) : EReal := max (P k + b1 k) z
/-- The second layer's rows. -/
def c2 (r : Fin 256) : EReal := (∑ k : Fin 512, W2 r k * a1 b1 P k) + b2 r
/-- Its four 64-row groups folded by max, and the clamp. -/
def a2 (j : Fin 64) : EReal :=
  max (max (max (c2 b1 W2 b2 P (row4 0 (by omega) j)) (c2 b1 W2 b2 P (row4 64 (by omega) j)))
    (max (c2 b1 W2 b2 P (row4 128 (by omega) j)) (c2 b1 W2 b2 P (row4 192 (by omega) j)))) z
/-- The third layer, clamped. -/
def a3 (k : Fin 256) : EReal := max ((∑ j : Fin 64, F1 k j * a2 b1 W2 b2 P j) + fb1 k) z
/-- The last row product. -/
def pre : EReal := ∑ k : Fin 256, F2 k * a3 b1 W2 b2 F1 fb1 P k
/-- Its bias, the clamp and the hyperbolic tangent. -/
def rest : EReal := Ideal.tanh (max (pre b1 W2 b2 F1 fb1 F2 P + fb2) z)
end

/-- The feature permutation: position `(h·14 + w)·2 + c` of the (row, column, channel) order is position
    `c·196 + h·14 + w` of the (channel, row, column) order. -/
def perm : Fin 392 ≃ Fin 392 where
  toFun k := ⟨(k.val % 2) * 196 + k.val / 2, by have := k.isLt; omega⟩
  invFun k := ⟨(k.val % 196) * 2 + k.val / 196, by have := k.isLt; omega⟩
  left_inv k := Fin.ext (by have := k.isLt; show ((k.val % 2) * 196 + k.val / 2) % 196 * 2 + ((k.val % 2) * 196 + k.val / 2) / 196 = k.val; omega)
  right_inv k := Fin.ext (by have := k.isLt; show (((k.val % 196) * 2 + k.val / 196) % 2) * 196 + ((k.val % 196) * 2 + k.val / 196) / 2 = k.val; omega)

theorem perm_val (k : Fin 392) : (perm k).val = (k.val % 2) * 196 + k.val / 2 := rfl

/-- The first layer does not see a common permutation of features and weight columns. -/
theorem pool1_perm (W1 W1' : Fin 4608 → Fin 392 → EReal) (xc xc' : Fin 392 → EReal)
    (hW : ∀ r k, W1' r k = W1 r (perm k)) (hx : ∀ k, xc' k = xc (perm k)) : pool1 W1' xc' = pool1 W1 xc := by
  have ht : ∀ o ho r, tap W1' xc' o ho r = tap W1 xc o ho r := fun o ho r => by
    unfold tap
    rw [← Equiv.sum_comp perm (fun k => W1 (row o ho r) k * xc k)]
    exact Finset.sum_congr rfl fun k _ => by rw [hW, hx]
  funext r
  unfold pool1
  simp only [ht]

end Cert.Net

end
-- ==== Proof.KBody.lean ====
/-
  What the 256-sample program's body computes for one sample: the value it stores at lane q of its 1 x 256 output block is
  the network of Net.lean applied to column q of its 392 x 256 feature block, with the parameter blocks read row by row.
  Every matrix product into a zero accumulator is read at an entry as the sum over the contraction index; broadcasts of
  bias columns, slices of row groups and the elementwise operations are read at an entry; changes of float format are
  the identity on the extended reals.
-/
import proofs.«150856_g2000702224566444_pallasbulk_1152_8_alg».proof.Proof.Gen.KernelIdeal.Skeleton
import proofs.«150856_g2000702224566444_pallasbulk_1152_8_alg».proof.Proof.LibMatmulSum
import proofs.«150856_g2000702224566444_pallasbulk_1152_8_alg».proof.Proof.LibPlainLists
import proofs.«150856_g2000702224566444_pallasbulk_1152_8_alg».proof.Proof.LibKeepdims
import proofs.«150856_g2000702224566444_pallasbulk_1152_8_alg».proof.Proof.LibCat2
import proofs.«150856_g2000702224566444_pallasbulk_1152_8_alg».proof.Proof.Net
import Idealize.ShloMosaic.Lib.ValueIdx
import Idealize.ShloMosaic.Lib.Pipeline.Value

set_option maxRecDepth 16384

noncomputable section

namespace Cert.KernelIdeal.Body

open Idealize.ShloMosaic Idealize.ShloMosaic.ValueIdx Idealize.SL.Sem Cert.LibMatmulSum

open Cert.KernelIdeal Cert.KernelIdeal.Gen

theorem pd1 : Plain dot_S512x392_S392x256_S512x256_1_0_0_1_n_n := Plain.of_lists _ rfl rfl rfl rfl rfl rfl
theorem pd2 : Plain dot_S256x512_S512x256_S256x256_1_0_0_1_n_n := Plain.of_lists _ rfl rfl rfl rfl rfl rfl
theorem pd3 : Plain dot_S256x64_S64x256_S256x256_1_0_0_1_n_n := Plain.of_lists _ rfl rfl rfl rfl rfl rfl
theorem pd4 : Plain dot_S8x256_S256x256_S8x256_1_0_0_1_n_n := Plain.of_lists _ rfl rfl rfl rfl rfl rfl

/-- A 64-row group of a 256 x 256 array, starting at row `o`, read at (j, q). -/
theorem group_at (o : ℕ) (ho : o + 64 ≤ 256) (x : FVec Ideal S256x256 .f32) (h : S256x256.Slices ![o, 0] S64x256)
    (j : Fin 64) (q : Fin 256) :
    extractStridedSlice S64x256 ![o, 0] x h (ix2 j q) = x (ix2 (Net.row4 o ho j) q) :=
  (Cert.LibCat2.slice_apply o 0 x h j q (by have := j.isLt; omega) (by have := q.isLt; omega)).trans
    (congrArg (fun q' => x (ix2 (Net.row4 o ho j) q')) (Fin.ext (Nat.zero_add _)))

/-- Row 0 of an 8 x 256 array read at (u, q). -/
theorem row0_at (x : FVec Ideal S8x256 .f32) (h : S8x256.Slices ![0, 0] S1x256) (u : Fin 1) (q : Fin 256) :
    extractStridedSlice S1x256 ![0, 0] x h (ix2 u q) = x (ix2 (0 : Fin 8) q) :=
  (Cert.LibCat2.slice_apply 0 0 x h u q (by have := u.isLt; omega) (by have := q.isLt; omega)).trans
    (congrArg x (by
      have hu : u.val = 0 := by have := u.isLt; omega
      funext a
      match a with
      | ⟨0, _⟩ => exact Fin.ext (by show 0 + u.val = 0; omega)
      | ⟨1, _⟩ => exact Fin.ext (by show 0 + q.val = q.val; omega)))

/-- The eight row groups folded in the first part of the body, at entry (p, q). -/
theorem pay3_at (v0 : Vec Ideal S392x256 .bf16) (v2 v5 v9 v13 v17 v21 v25 v29 : Vec Ideal S512x392 .bf16) (p : Fin 512) (q : Fin 256) :
    k0_pay3 v0 v2 v5 v9 v13 v17 v21 v25 v29 (ix2 p q) =
      max (max (max (max (max (max (max (∑ k : Fin 392, v2 (ix2 p k) * v0 (ix2 k q)) (∑ k : Fin 392, v5 (ix2 p k) * v0 (ix2 k q)))
        (∑ k : Fin 392, v9 (ix2 p k) * v0 (ix2 k q))) (∑ k : Fin 392, v13 (ix2 p k) * v0 (ix2 k q))) (∑ k : Fin 392, v17 (ix2 p k) * v0 (ix2 k q)))
        (∑ k : Fin 392, v21 (ix2 p k) * v0 (ix2 k q))) (∑ k : Fin 392, v25 (ix2 p k) * v0 (ix2 k q))) (∑ k : Fin 392, v29 (ix2 p k) * v0 (ix2 k q)) := by
  unfold k0_pay3 k0_pay2
  simp only [maximumf_apply, shapeCast_self, matmul_zero_at pd1]

/-- The ninth row group, the bias and clamp, and the three later layers up to the last row product, at lane q: the
    network's `pre` over the rows of the parameter tiles, the first layer given by the eight folded groups `v32` and the ninth
    group's product. -/
theorem pay4_at (v1 : FVec Ideal S392x256 .bf16) (v32 : FVec Ideal S512x256 .f32) (v33 : Vec Ideal S512x392 .bf16) (v37 : Vec Ideal S512x1 .f32)
    (v42 : Vec Ideal S256x512 .bf16) (v45 : Vec Ideal S256x1 .f32) (v57 : Vec Ideal S256x64 .bf16) (v60 : Vec Ideal S256x1 .f32)
    (v65 : Vec Ideal S8x256 .bf16) (u : Fin 1) (q : Fin 256) :
    k0_pay4 v1 v32 v33 v37 v42 v45 v57 v60 v65 (ix2 u q) =
      Net.pre (fun r => v37 (ix2 r (0 : Fin 1))) (fun r k => v42 (ix2 r k)) (fun r => v45 (ix2 r (0 : Fin 1)))
        (fun r j => v57 (ix2 r j)) (fun r => v60 (ix2 r (0 : Fin 1))) (fun k => v65 (ix2 (0 : Fin 8) k))
        (fun r => max (v32 (ix2 r q)) (∑ k : Fin 392, v33 (ix2 r k) * v1 (ix2 k q))) := by
  unfold k0_pay4
  simp only [row0_at, matmul_zero_at pd4, truncf_apply, maximumf_apply, addf_apply, broadcast_apply, matmul_zero_at pd3,
    group_at 0 (by omega), group_at 64 (by omega), group_at 128 (by omega), group_at 192 (by omega), matmul_zero_at pd2,
    broadcastTo_a1_ab_apply, shapeCast_self, matmul_zero_at pd1]
  rfl

/-- The last bias, the clamp and the hyperbolic tangent, at lane q. -/
theorem pay1_at (v68 : FVec Ideal S1x256 .f32) (v69 : Vec Ideal S1x1 .f32) (u : Fin 1) (q : Fin 256) :
    k0_pay1 v68 v69 (ix2 u q) = Ideal.tanh (max (v68 (ix2 u q) + v69 (ix2 (0 : Fin 1) (0 : Fin 1))) Net.z) := by
  unfold k0_pay1
  have hb : broadcastTo S1x256 v69 broadcasts_S1x1_S1x256 (ix2 u q) = v69 (ix2 (0 : Fin 1) (0 : Fin 1)) := by
    have hu : u = 0 := Fin.ext (by have := u.isLt; omega)
    subst hu
    exact broadcastTo_a1_ab_apply v69 broadcasts_S1x1_S1x256 0 q
  show Ideal.tanh (max (v68 (ix2 u q) + broadcastTo S1x256 v69 broadcasts_S1x1_S1x256 (ix2 u q)) _) = _
  rw [hb]
  rfl

end Cert.KernelIdeal.Body

end
-- ==== Proof.KHost.lean ====
/-
  The two arrays the 256-sample program computes on the host before its grid, read at an entry.

  The feature array: the input [16384, 2, 14, 14] with axes reordered to (row, column, channel, sample) and the first three
  merged, so entry (k, n) is sample n at channel k mod 2, row k / 28, column (k / 2) mod 14.  The permuted first-layer weights:
  the [4608, 392] weights with each row's 392 columns regrouped the same way, so entry (r, k) is the weights' entry
  (r, (k mod 2)·196 + k / 2).  A change of float format is the identity on the extended reals.
-/
import proofs.«150856_g2000702224566444_pallasbulk_1152_8_alg».proof.Proof.Gen.KernelIdeal.Frame
import proofs.«150856_g2000702224566444_pallasbulk_1152_8_alg».proof.Proof.Net
import Idealize.ShloMosaic.Lib.ValueIdx
import Idealize.ShloMosaic.Lib.Pipeline.Value
import Idealize.ShloMosaic.Lib.StableHlo.Run

set_option maxRecDepth 16384

noncomputable section

namespace Cert.KernelIdeal.Host

open Idealize.ShloMosaic Idealize.ShloMosaic.ValueIdx Idealize.SL.Sem

open Cert.KernelIdeal Cert.KernelIdeal.Gen Idealize.ShloMosaic.TcCoe

/-- The feature array as a function of the input array. -/
def feats (a0 : FVec Ideal S16384x2x14x14 .f32) : FVec Ideal S392x16384 .bf16 :=
  truncf .bf16 (shapeCast S392x16384 (transpose S14x14x2x16384 [2, 3, 1, 0] a0 transposes_S16384x2x14x14_S14x14x2x16384_2_3_1_0)
    shapeCasts_S14x14x2x16384_S392x16384) bitsLt_bf16_f32

/-- The permuted first-layer weights as a function of the weight array. -/
def wperm (a1 : FVec Ideal S4608x392 .bf16) : FVec Ideal S4608x392 .bf16 :=
  shapeCast S4608x392 (transpose S4608x14x14x2 [0, 2, 3, 1] (shapeCast S4608x2x14x14 a1 shapeCasts_S4608x392_S4608x2x14x14)
    transposes_S4608x2x14x14_S4608x14x14x2_0_2_3_1) shapeCasts_S4608x14x14x2_S4608x392

/-- Entry (k, n) of the feature array. -/
theorem feats_at (a0 : FVec Ideal S16384x2x14x14 .f32) (k : Fin 392) (n : Fin 16384) :
    feats a0 (ix2 k n) = a0 (ix4 n (⟨k.val % 2, by omega⟩ : Fin 2) (⟨k.val / 28, by have := k.isLt; omega⟩ : Fin 14)
      (⟨(k.val / 2) % 14, by omega⟩ : Fin 14)) := by
  unfold feats
  rw [truncf_apply]
  refine (shapeCast_apply _ _ (ix2 k n) (ix4 (⟨k.val / 28, by have := k.isLt; omega⟩ : Fin 14) (⟨(k.val / 2) % 14, by omega⟩ : Fin 14)
    (⟨k.val % 2, by omega⟩ : Fin 2) n) ?_).trans ?_
  · rw [Shape.rowMajor_val_four, Shape.rowMajor_val_two]
    show ((k.val / 28 * 14 + (k.val / 2) % 14) * 2 + k.val % 2) * 16384 + n.val = k.val * 16384 + n.val
    have := k.isLt
    omega
  · exact transpose_apply _ _ _ _ _ (fun b => match b with
      | ⟨0, _⟩ => rfl
      | ⟨1, _⟩ => rfl
      | ⟨2, _⟩ => rfl
      | ⟨3, _⟩ => rfl)

/-- Entry (r, k) of the permuted weights. -/
theorem wperm_at (a1 : FVec Ideal S4608x392 .bf16) (r : Fin 4608) (k : Fin 392) :
    wperm a1 (ix2 r k) = a1 (ix2 r (Net.perm k)) := by
  unfold wperm
  refine (shapeCast_apply _ _ (ix2 r k) (ix4 r (⟨k.val / 28, by have := k.isLt; omega⟩ : Fin 14) (⟨(k.val / 2) % 14, by omega⟩ : Fin 14)
    (⟨k.val % 2, by omega⟩ : Fin 2)) ?_).trans ?_
  · rw [Shape.rowMajor_val_four, Shape.rowMajor_val_two]
    show ((r.val * 14 + k.val / 28) * 14 + (k.val / 2) % 14) * 2 + k.val % 2 = r.val * 392 + k.val
    have := k.isLt
    omega
  refine (transpose_apply _ _ _ _ (ix4 r (⟨k.val % 2, by omega⟩ : Fin 2) (⟨k.val / 28, by have := k.isLt; omega⟩ : Fin 14)
    (⟨(k.val / 2) % 14, by omega⟩ : Fin 14)) (fun b => match b with
      | ⟨0, _⟩ => rfl
      | ⟨1, _⟩ => rfl
      | ⟨2, _⟩ => rfl
      | ⟨3, _⟩ => rfl)).trans ?_
  refine shapeCast_apply _ _ _ (ix2 r (Net.perm k)) ?_
  rw [Shape.rowMajor_val_four, Shape.rowMajor_val_two]
  show r.val * 392 + (Net.perm k).val = ((r.val * 2 + k.val % 2) * 14 + k.val / 28) * 14 + (k.val / 2) % 14
  rw [Net.perm_val]
  have := k.isLt
  omega

variable (m : (ℓ : Loc nD τ sig) → Buf (Elt Ideal) ℓ)

/-- The region finds the feature array at `feats` of the input array. -/
theorem v2_eq (c : Dev nD) : V m c main_v2 = feats (m ((c : Thread nD τ).loc main_arg0)) := by
  show StableHlo.after hostOps0 (fun b => m (c, b)) (Proc.devRef .tc main_v2) = _
  after_results
  rfl

/-- The region finds the permuted weights at `wperm` of the weight array. -/
theorem v5_eq (c : Dev nD) : V m c main_v5 = wperm (m ((c : Thread nD τ).loc main_arg1)) := by
  show StableHlo.after hostOps0 (fun b => m (c, b)) (Proc.devRef .tc main_v5) = _
  after_results
  rfl

end Cert.KernelIdeal.Host

end
-- ==== Proof.Spec.lean ====
/-
  The row of 16384 outputs both programs compute, as one function of the nine argument arrays: entry (0, n) is the network
  of Net.lean applied to sample n's 392 features in (channel, row, column) order, feature k being the input's entry
  (n, k / 196, (k mod 196) / 14, k mod 14), with the parameter arrays read row by row.
-/
import proofs.«150856_g2000702224566444_pallasbulk_1152_8_alg».proof.Proof.Net

noncomputable section

namespace Cert.Net

open Idealize.ShloMosaic Idealize.ShloMosaic.ValueIdx

/-- Feature k of sample n, in (channel, row, column) order. -/
def sample (a0 : (⟨4, ![16384, 2, 14, 14]⟩ : Shape).Idx → EReal) (n : Fin 16384) (k : Fin 392) : EReal :=
  a0 (ix4 n (⟨k.val / 196, by have := k.isLt; omega⟩ : Fin 2) (⟨(k.val % 196) / 14, by omega⟩ : Fin 14) (⟨k.val % 14, by omega⟩ : Fin 14))

/-- The same feature found from its position in (row, column, channel) order. -/
theorem sample_perm (a0 : (⟨4, ![16384, 2, 14, 14]⟩ : Shape).Idx → EReal) (n : Fin 16384) (k : Fin 392) :
    sample a0 n (perm k) = a0 (ix4 n (⟨k.val % 2, by omega⟩ : Fin 2) (⟨k.val / 28, by have := k.isLt; omega⟩ : Fin 14)
      (⟨(k.val / 2) % 14, by omega⟩ : Fin 14)) := by
  unfold sample
  have hk := k.isLt
  refine congrArg a0 (funext fun a => ?_)
  match a with
  | ⟨0, _⟩ => rfl
  | ⟨1, _⟩ => exact Fin.ext (by show (perm k).val / 196 = k.val % 2; rw [perm_val]; omega)
  | ⟨2, _⟩ => exact Fin.ext (by
      show ((perm k).val % 196) / 14 = k.val / 28
      have h1 : (perm k).val % 196 = k.val / 2 := by rw [perm_val]; omega
      rw [h1]; omega)
  | ⟨3, _⟩ => exact Fin.ext (by
      show (perm k).val % 14 = (k.val / 2) % 14
      have h1 : (perm k).val = (k.val % 2) * 14 * 14 + k.val / 2 := by rw [perm_val]; omega
      rw [h1]; omega)

/-- The later layers depend on their eight inputs only through their values. -/
theorem rest_congr {b1 b1' : Fin 512 → EReal} {W2 W2' : Fin 256 → Fin 512 → EReal} {b2 b2' : Fin 256 → EReal}
    {F1 F1' : Fin 256 → Fin 64 → EReal} {fb1 fb1' : Fin 256 → EReal} {F2 F2' : Fin 256 → EReal} {fb2 fb2' : EReal}
    {P P' : Fin 512 → EReal} (h1 : b1 = b1') (h2 : W2 = W2') (h3 : b2 = b2') (h4 : F1 = F1') (h5 : fb1 = fb1') (h6 : F2 = F2')
    (h7 : fb2 = fb2') (h8 : P = P') : rest b1 W2 b2 F1 fb1 F2 fb2 P = rest b1' W2' b2' F1' fb1' F2' fb2' P' := by
  subst h1 h2 h3 h4 h5 h6 h7 h8; rfl

/-- The output row. -/
def rowOut (a0 : (⟨4, ![16384, 2, 14, 14]⟩ : Shape).Idx → EReal) (a1 : (⟨2, ![4608, 392]⟩ : Shape).Idx → EReal)
    (a2 : (⟨2, ![512, 1]⟩ : Shape).Idx → EReal) (a3 : (⟨2, ![256, 512]⟩ : Shape).Idx → EReal)
    (a4 : (⟨2, ![256, 1]⟩ : Shape).Idx → EReal) (a5 : (⟨2, ![256, 64]⟩ : Shape).Idx → EReal)
    (a6 : (⟨2, ![256, 1]⟩ : Shape).Idx → EReal) (a7 : (⟨2, ![8, 256]⟩ : Shape).Idx → EReal)
    (a8 : (⟨2, ![1, 1]⟩ : Shape).Idx → EReal) : (⟨2, ![1, 16384]⟩ : Shape).Idx → EReal := fun i =>
  rest (fun r => a2 (ix2 r (0 : Fin 1))) (fun r k => a3 (ix2 r k)) (fun r => a4 (ix2 r (0 : Fin 1))) (fun r j => a5 (ix2 r j))
    (fun r => a6 (ix2 r (0 : Fin 1))) (fun k => a7 (ix2 (0 : Fin 8) k)) (a8 (ix2 (0 : Fin 1) (0 : Fin 1)))
    (pool1 (fun r k => a1 (ix2 r k)) (sample a0 (i 1)))

/-- The output row laid out as a column of 16384 entries: the row read as a vector, the vector read as a column. -/
def colOut (y : (⟨2, ![1, 16384]⟩ : Shape).Idx → EReal) (h1 : (⟨2, ![1, 16384]⟩ : Shape).ShapeCasts ⟨1, ![16384]⟩)
    (h2 : (⟨1, ![16384]⟩ : Shape).ShapeCasts ⟨2, ![16384, 1]⟩) : (⟨2, ![16384, 1]⟩ : Shape).Idx → EReal :=
  shapeCast ⟨2, ![16384, 1]⟩ (shapeCast ⟨1, ![16384]⟩ y h1) h2

end Cert.Net

end
-- ==== Proof.KFinal.lean ====
/-
  The 256-sample program's output row after its grid has run.  Grid point t works on samples 256·t … 256·t + 255: its feature
  block is columns 256·t … of the feature array, its parameter blocks are the whole parameter arrays, and it writes back
  lanes 256·t … of the output row.  The 64 blocks tile the row, so the row ends at the function of Spec.lean: at sample n the
  body's network over column n of the feature array and the permuted first-layer weights, which is the network over the
  sample's features in (channel, row, column) order and the weights as given (Net.pool1_perm).
-/
import proofs.«150856_g2000702224566444_pallasbulk_1152_8_alg».proof.Proof.Gen.KernelIdeal.Frame
import proofs.«150856_g2000702224566444_pallasbulk_1152_8_alg».proof.Proof.KBody
import proofs.«150856_g2000702224566444_pallasbulk_1152_8_alg».proof.Proof.KHost
import proofs.«150856_g2000702224566444_pallasbulk_1152_8_alg».proof.Proof.Spec
import Idealize.ShloMosaic.Lib.ValueIdx
import Idealize.ShloMosaic.Lib.Pipeline.Value

set_option maxRecDepth 16384

noncomputable section

namespace Cert.KernelIdeal.Final

open Idealize.ShloMosaic Idealize.ShloMosaic.ValueIdx Idealize.SL.Sem

open Cert.KernelIdeal Cert.KernelIdeal.Gen Idealize.ShloMosaic.TcCoe
open Idealize.ShloMosaic.Pipeline (Dat)

theorem hz : (![0, 0] : Fin 2 → Nat) = fun _ => 0 := funext fun a => by fin_cases a <;> rfl

/-- A 512-row tile of the weights, loaded from row `o`, read at (r, k). -/
theorem tile_at (x1 : Vec Ideal S4608x392 .bf16) (o : ℕ) (ho : o + 512 ≤ 4608)
    (inb : ∀ a, (![o, 0] : Fin 2 → Nat) a + S512x392.size a ≤ S4608x392.size a) (r : Fin 512) (k : Fin 392) :
    View.ld x1 (Rect.unit (s := S4608x392) ![o, 0] S512x392.size inb) (ix2 r k) = x1 (ix2 (Net.row o ho r) k) := by
  show x1 ((Rect.unit (s := S4608x392) ![o, 0] S512x392.size inb).emb (ix2 r k)) = _
  refine congrArg x1 (funext fun a => Fin.ext ?_)
  match a with
  | ⟨0, _⟩ => show o + 1 * r.val = o + r.val; omega
  | ⟨1, _⟩ => show 0 + 1 * k.val = k.val; omega

/-- The body's output block at lane q: the network over column q of the feature block and the rows of the parameter blocks. -/
theorem out_at (x0 : Vec Ideal S392x256 .bf16) (x1 : Vec Ideal S4608x392 .bf16) (x2 : Vec Ideal S512x1 .f32) (x3 : Vec Ideal S256x512 .bf16)
    (x4 : Vec Ideal S256x1 .f32) (x5 : Vec Ideal S256x64 .bf16) (x6 : Vec Ideal S256x1 .f32) (x7 : Vec Ideal S8x256 .bf16)
    (x8 : Vec Ideal S1x1 .f32) (u : Fin 1) (q : Fin 256) :
    out0_9 x0 x1 x2 x3 x4 x5 x6 x7 x8 (ix2 u q) =
      Net.rest (fun r => x2 (ix2 r (0 : Fin 1))) (fun r k => x3 (ix2 r k)) (fun r => x4 (ix2 r (0 : Fin 1))) (fun r j => x5 (ix2 r j))
        (fun r => x6 (ix2 r (0 : Fin 1))) (fun k => x7 (ix2 (0 : Fin 8) k)) (x8 (ix2 (0 : Fin 1) (0 : Fin 1)))
        (Net.pool1 (fun r k => x1 (ix2 r k)) (fun k => x0 (ix2 k q))) := by
  unfold out0_9
  rw [View.canon_unit_zero hz]
  simp only [View.ld_unit_zero (S := S392x256) hz, View.ld_unit_zero (S := S512x1) hz, View.ld_unit_zero (S := S256x512) hz,
    View.ld_unit_zero (S := S256x1) hz, View.ld_unit_zero (S := S256x64) hz, View.ld_unit_zero (S := S8x256) hz,
    View.ld_unit_zero (S := S1x1) hz]
  rw [Body.pay1_at, Body.pay4_at]
  have hP : (fun r : Fin 512 => max (k0_pay3 x0 (View.ld x1 r0_1) (View.ld x1 r0_2) (View.ld x1 r0_3) (View.ld x1 r0_4) (View.ld x1 r0_5)
        (View.ld x1 r0_6) (View.ld x1 r0_7) (View.ld x1 r0_8) (ix2 r q))
        (∑ k : Fin 392, View.ld x1 r0_9 (ix2 r k) * k0_pay2 x0 (ix2 k q)))
      = Net.pool1 (fun r k => x1 (ix2 r k)) (fun k => x0 (ix2 k q)) := by
    funext r
    rw [Body.pay3_at]
    unfold Net.pool1 Net.tap k0_pay2
    simp only [shapeCast_self, tile_at x1 0 (by omega), tile_at x1 512 (by omega), tile_at x1 1024 (by omega), tile_at x1 1536 (by omega), tile_at x1 2048 (by omega), tile_at x1 2560 (by omega), tile_at x1 3072 (by omega), tile_at x1 3584 (by omega), tile_at x1 4096 (by omega)]
  rw [hP]
  rfl

/-- The printed index maps, decided over the grid: the feature window and the output window move one block per point along
    the sample axis; the parameter windows stay at block (0, 0). -/
theorem idx_facts : ∀ t : Fin cfg0.N, win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem N64 : cfg0.N = 64 := N_0

variable (m : (ℓ : Loc nD τ sig) → Buf (Elt Ideal) ℓ) (ρ : Dev nD → PrngReg)

/-- The feature block at point t, entry (k, q): the feature array at (k, 256·t + q). -/
theorem blk0_at (c : Dev nD) (t : Fin cfg0.N) (k : Fin 392) (q : Fin 256) (hn : t.val * 256 + q.val < 16384) :
    iblk m c 0 t (ix2 k q) = V m c main_v2 (ix2 k (⟨t.val * 256 + q.val, hn⟩ : Fin 16384)) := by
  obtain ⟨e0, e1, -⟩ := idx_facts t
  show V m c main_v2 (((cfg0.win 0).blk t).view.emb (ix2 k q)) = _
  refine congrArg (V m c main_v2) (funext fun a => Fin.ext ?_)
  match a with
  | ⟨0, _⟩ => show win0_0.index t (0 : Fin 2) * 392 + 1 * k.val = k.val; omega
  | ⟨1, _⟩ => show win0_0.index t (1 : Fin 2) * 256 + 1 * q.val = t.val * 256 + q.val; omega

/-- Window 1's block at any point is its whole array. -/
theorem blk1_at (c : Dev nD) (t : Fin cfg0.N) (y : S4608x392.Idx) : iblk m c 1 t y = V m c main_v5 y := by
  have h := idx_facts t
  show V m c main_v5 (((cfg0.win 1).blk t).view.emb y) = _
  refine congrArg (V m c main_v5) (funext fun a => Fin.ext ?_)
  match a with
  | ⟨0, _⟩ => show win0_1.index t (0 : Fin 2) * 4608 + 1 * (y 0).val = (y 0).val; omega
  | ⟨1, _⟩ => show win0_1.index t (1 : Fin 2) * 392 + 1 * (y 1).val = (y 1).val; omega

/-- Window 2's block at any point is its whole array. -/
theorem blk2_at (c : Dev nD) (t : Fin cfg0.N) (y : S512x1.Idx) : iblk m c 2 t y = V m c main_arg2 y := by
  have h := idx_facts t
  show V m c main_arg2 (((cfg0.win 2).blk t).view.emb y) = _
  refine congrArg (V m c main_arg2) (funext fun a => Fin.ext ?_)
  match a with
  | ⟨0, _⟩ => show win0_2.index t (0 : Fin 2) * 512 + 1 * (y 0).val = (y 0).val; omega
  | ⟨1, _⟩ => show win0_2.index t (1 : Fin 2) * 1 + 1 * (y 1).val = (y 1).val; omega

/-- Window 3's block at any point is its whole array. -/
theorem blk3_at (c : Dev nD) (t : Fin cfg0.N) (y : S256x512.Idx) : iblk m c 3 t y = V m c main_arg3 y := by
  have h := idx_facts t
  show V m c main_arg3 (((cfg0.win 3).blk t).view.emb y) = _
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- Window 4's block at any point is its whole array. -/
theorem blk4_at (c : Dev nD) (t : Fin cfg0.N) (y : S256x1.Idx) : iblk m c 4 t y = V m c main_arg4 y := by
  have h := idx_facts t
  show V m c main_arg4 (((cfg0.win 4).blk t).view.emb y) = _
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega

/-- Window 5's block at any point is its whole array. -/
theorem blk5_at (c : Dev nD) (t : Fin cfg0.N) (y : S256x64.Idx) : iblk m c 5 t y = V m c main_arg5 y := by
  have h := idx_facts t
  show V m c main_arg5 (((cfg0.win 5).blk t).view.emb y) = _
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Window 6's block at any point is its whole array. -/
theorem blk6_at (c : Dev nD) (t : Fin cfg0.N) (y : S256x1.Idx) : iblk m c 6 t y = V m c main_arg6 y := by
  have h := idx_facts t
  show V m c main_arg6 (((cfg0.win 6).blk t).view.emb y) = _
  refine congrArg (V m c main_arg6) (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7's block at any point is its whole array. -/
theorem blk7_at (c : Dev nD) (t : Fin cfg0.N) (y : S8x256.Idx) : iblk m c 7 t y = V m c main_arg7 y := by
  have h := idx_facts t
  show V m c main_arg7 (((cfg0.win 7).blk t).view.emb y) = _
  refine congrArg (V m c main_arg7) (funext fun a => Fin.ext ?_)
  match a with
  | ⟨0, _⟩ => show win0_7.index t (0 : Fin 2) * 8 + 1 * (y 0).val = (y 0).val; omega
  | ⟨1, _⟩ => show win0_7.index t (1 : Fin 2) * 256 + 1 * (y 1).val = (y 1).val; omega

/-- Window 8's block at any point is its whole array. -/
theorem blk8_at (c : Dev nD) (t : Fin cfg0.N) (y : S1x1.Idx) : iblk m c 8 t y = V m c main_arg8 y := by
  have h := idx_facts t
  show V m c main_arg8 (((cfg0.win 8).blk t).view.emb y) = _
  refine congrArg (V m c main_arg8) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- The output row as a function of the argument arrays at launch. -/
def row (c : Dev nD) : S1x16384.Idx → EReal :=
  Net.rowOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point t writes back is block t of the output row. -/
theorem flushed_eq (c : Dev nD) (t : Fin cfg0.N) :
    (dats m 0 c).flushed 9 t = ((cfg0.win 9).blk t).view.read (Elt Ideal) (row m c) := by
  show (cfg0.win 9).cut (grid0.coords t) ((dats m 0 c).after 9 t) = _
  rw [after0_9]
  funext j
  obtain ⟨u, q, rfl⟩ : ∃ (u : Fin 1) (q : Fin 256), j = ix2 u q := ⟨j 0, j 1, eq_ix2 j⟩
  have ht : t.val < 64 := lt_of_lt_of_eq t.isLt N64
  have hn : t.val * 256 + q.val < 16384 := by have := q.isLt; omega
  obtain ⟨-, -, e2, e3, -⟩ := idx_facts t
  have hemb : ((cfg0.win 9).blk t).view.emb (ix2 u q) = ix2 (0 : Fin 1) (⟨t.val * 256 + q.val, hn⟩ : Fin 16384) := by
    funext a; apply Fin.ext
    match a with
    | ⟨0, _⟩ => show win0_9.index t (0 : Fin 2) * 1 + 1 * u.val = 0; have := u.isLt; omega
    | ⟨1, _⟩ => show win0_9.index t (1 : Fin 2) * 256 + 1 * q.val = t.val * 256 + q.val; omega
  show out0_9 (iblk m c 0 t) (iblk m c 1 t) (iblk m c 2 t) (iblk m c 3 t) (iblk m c 4 t) (iblk m c 5 t) (iblk m c 6 t) (iblk m c 7 t)
    (iblk m c 8 t) (ix2 u q) = row m c (((cfg0.win 9).blk t).view.emb (ix2 u q))
  rw [hemb]
  refine (out_at (iblk m c 0 t) (iblk m c 1 t) (iblk m c 2 t) (iblk m c 3 t) (iblk m c 4 t) (iblk m c 5 t) (iblk m c 6 t) (iblk m c 7 t)
    (iblk m c 8 t) u q).trans ?_
  unfold row Net.rowOut
  have e2 : (fun r : Fin 512 => iblk m c 2 t (ix2 r (0 : Fin 1))) = fun r => m ((c : Thread nD τ).loc main_arg2) (ix2 r (0 : Fin 1)) :=
    funext fun r => (blk2_at m c t _).trans (congrFun (V_main_arg2 m c) _)
  have e3 : (fun (r : Fin 256) (k : Fin 512) => iblk m c 3 t (ix2 r k)) = fun r k => m ((c : Thread nD τ).loc main_arg3) (ix2 r k) :=
    funext fun r => funext fun k => (blk3_at m c t _).trans (congrFun (V_main_arg3 m c) _)
  have e4 : (fun r : Fin 256 => iblk m c 4 t (ix2 r (0 : Fin 1))) = fun r => m ((c : Thread nD τ).loc main_arg4) (ix2 r (0 : Fin 1)) :=
    funext fun r => (blk4_at m c t _).trans (congrFun (V_main_arg4 m c) _)
  have e5 : (fun (r : Fin 256) (j : Fin 64) => iblk m c 5 t (ix2 r j)) = fun r j => m ((c : Thread nD τ).loc main_arg5) (ix2 r j) :=
    funext fun r => funext fun j => (blk5_at m c t _).trans (congrFun (V_main_arg5 m c) _)
  have e6 : (fun r : Fin 256 => iblk m c 6 t (ix2 r (0 : Fin 1))) = fun r => m ((c : Thread nD τ).loc main_arg6) (ix2 r (0 : Fin 1)) :=
    funext fun r => (blk6_at m c t _).trans (congrFun (V_main_arg6 m c) _)
  have e7 : (fun k : Fin 256 => iblk m c 7 t (ix2 (0 : Fin 8) k)) = fun k => m ((c : Thread nD τ).loc main_arg7) (ix2 (0 : Fin 8) k) :=
    funext fun k => (blk7_at m c t _).trans (congrFun (V_main_arg7 m c) _)
  have e8 : iblk m c 8 t (ix2 (0 : Fin 1) (0 : Fin 1)) = m ((c : Thread nD τ).loc main_arg8) (ix2 (0 : Fin 1) (0 : Fin 1)) :=
    (blk8_at m c t _).trans (congrFun (V_main_arg8 m c) _)
  have eP : Net.pool1 (fun r k => iblk m c 1 t (ix2 r k)) (fun k => iblk m c 0 t (ix2 k q))
      = Net.pool1 (fun r k => m ((c : Thread nD τ).loc main_arg1) (ix2 r k))
          (Net.sample (m ((c : Thread nD τ).loc main_arg0)) (⟨t.val * 256 + q.val, hn⟩ : Fin 16384)) :=
    Net.pool1_perm _ _ _ _
      (fun r k => ((blk1_at m c t _).trans (congrFun (Host.v5_eq m c) _)).trans (Host.wperm_at _ r k))
      (fun k => ((blk0_at m c t k q hn).trans (congrFun (Host.v2_eq m c) _)).trans
        ((Host.feats_at _ k _).trans (Net.sample_perm _ _ k).symm))
  exact Net.rest_congr e2 e3 e4 e5 e6 e7 e8 eP

/-- An index of the row is in point t's block iff its lane is one of the block's. -/
theorem mem_blk (t : Fin cfg0.N) (i : S1x16384.Idx) :
    i ∈ ((cfg0.win 9).blk t).view.set ↔ ∀ a : Fin 2, win0_9.index t a * S1x256.size a ≤ (i a).val ∧ (i a).val < win0_9.index t a * S1x256.size a + S1x256.size a := by
  show i ∈ ((View.whole main_v6).slice (win0_9.rect t)).set ↔ _
  rw [View.set_slice_whole, Rect.mem_set_unit]
  exact Iff.rfl

/-- The 64 blocks tile the row, so after the grid the output row is `row`. -/
theorem final (c : Dev nD) : (dats m 0 c).arrAt 9 cfg0.N = row m c :=
  (dats m 0 c).arrAt_eq_of_cover 9 (row m c) (fun t _ => flushed_eq m c t) fun i => by
    have hi1 : (i 1).val < 16384 := (i 1).isLt
    have hi0 : (i 0).val < 1 := (i 0).isLt
    refine ⟨⟨(i 1).val / 256, by rw [N64]; omega⟩, flush0_9 _, ?_⟩
    rw [mem_blk]
    obtain ⟨-, -, e2, e3, -⟩ := idx_facts ⟨(i 1).val / 256, by rw [N64]; omega⟩
    intro a
    match a with
    | ⟨0, _⟩ => show win0_9.index _ (0 : Fin 2) * 1 ≤ (i 0).val ∧ (i 0).val < win0_9.index _ (0 : Fin 2) * 1 + 1; rw [e2]; omega
    | ⟨1, _⟩ => show win0_9.index _ (1 : Fin 2) * 256 ≤ (i 1).val ∧ (i 1).val < win0_9.index _ (1 : Fin 2) * 256 + 256; rw [e3]; show (i 1).val / 256 * 256 ≤ (i 1).val ∧ (i 1).val < (i 1).val / 256 * 256 + 256; omega

end Cert.KernelIdeal.Final

end
-- ==== Proof.KRun.lean ====
/-
  The 256-sample program's run, read: after the grid the host reads the output row as a vector and the vector as a column;
  the result is that column of the row of Spec.lean, and the nine argument arrays end as they were launched.
-/
import proofs.«150856_g2000702224566444_pallasbulk_1152_8_alg».proof.Proof.KFinal
import Idealize.ShloMosaic.Lib.StableHlo.Run

set_option maxRecDepth 16384

noncomputable section

namespace Cert.KernelIdeal.Run

open Idealize.ShloMosaic Idealize.ShloMosaic.ValueIdx Idealize.SL.Sem

open Cert.KernelIdeal Cert.KernelIdeal.Gen Idealize.ShloMosaic.TcCoe
open Idealize.ShloMosaic.Pipeline (Dat)

variable (m : (ℓ : Loc nD τ sig) → Buf (Elt Ideal) ℓ) (ρ : Dev nD → PrngReg)

/-- The host operations after the grid leave the result at the column of the output row. -/
theorem tail_eq (c : Dev nD) :
    Pipeline.afterTail₀ cfgs (dats m) 0 (V0 m) [hostOps1] c main_v8
      = Net.colOut (Final.row m c) shapeCasts_S1x16384_S16384 shapeCasts_S16384_S16384x1 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v6)
      = Final.row m c :=
    (Pipeline.withArrays_arr spec0 launch0.win.arr_inj c _ _ 9).trans (Final.final m c)
  rw [hw]
  rfl

/-- Every weakly fair execution terminates with the result at the column of the output row and the arguments unchanged. -/
theorem run : θ_run defs (onTc (τ := τ) (main (F := Ideal))) ⟨m, fun _ => 0, ρ⟩ (fun r => ∀ c : Dev nD,
      r.2.mem ((c.tc : Thread nD τ).loc main_v8) = Net.colOut (Final.row m c) shapeCasts_S1x16384_S16384 shapeCasts_S16384_S16384x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩) (run_main m ρ)

end Cert.KernelIdeal.Run

end
-- ==== Proof.RBody.lean ====
/-
  What the 128-sample program's body computes for one sample.  It keeps the running maximum of the first layer's row groups
  in a scratch buffer: the first group's product is stored, and each later group's product is folded in by max with what the
  buffer holds; the buffer is then read back, biased and clamped, and the later layers follow.  Each stored value is read
  at an entry: a matrix product into a zero accumulator as the sum over the contraction index; bias columns, row-group
  slices and elementwise operations entry by entry; changes of float format the identity on the extended reals.
-/
import proofs.«150856_g2000702224566444_pallasbulk_1152_8_alg».proof.Proof.Gen.ReferenceIdeal.Skeleton
import proofs.«150856_g2000702224566444_pallasbulk_1152_8_alg».proof.Proof.LibMatmulSum
import proofs.«150856_g2000702224566444_pallasbulk_1152_8_alg».proof.Proof.LibPlainLists
import proofs.«150856_g2000702224566444_pallasbulk_1152_8_alg».proof.Proof.LibKeepdims
import proofs.«150856_g2000702224566444_pallasbulk_1152_8_alg».proof.Proof.LibCat2
import proofs.«150856_g2000702224566444_pallasbulk_1152_8_alg».proof.Proof.Net
import Idealize.ShloMosaic.Lib.ValueIdx
import Idealize.ShloMosaic.Lib.Pipeline.Value

set_option maxRecDepth 16384

noncomputable section

namespace Cert.ReferenceIdeal.Body

open Idealize.ShloMosaic Idealize.ShloMosaic.ValueIdx Idealize.SL.Sem

open Cert.ReferenceIdeal Cert.ReferenceIdeal.Gen Cert.LibMatmulSum

theorem pd1 : Plain dot_S512x392_S392x128_S512x128_1_0_0_1_n_n := Plain.of_lists _ rfl rfl rfl rfl rfl rfl
theorem pd2 : Plain dot_S256x512_S512x128_S256x128_1_0_0_1_n_n := Plain.of_lists _ rfl rfl rfl rfl rfl rfl
theorem pd3 : Plain dot_S256x64_S64x128_S256x128_1_0_0_1_n_n := Plain.of_lists _ rfl rfl rfl rfl rfl rfl
theorem pd4 : Plain dot_S8x256_S256x128_S8x128_1_0_0_1_n_n := Plain.of_lists _ rfl rfl rfl rfl rfl rfl

/-- A 64-row group of a 256 x 128 array, starting at row `o`, read at (j, q). -/
theorem group_at (o : ℕ) (ho : o + 64 ≤ 256) (x : FVec Ideal S256x128 .f32) (h : S256x128.Slices ![o, 0] S64x128)
    (j : Fin 64) (q : Fin 128) :
    extractStridedSlice S64x128 ![o, 0] x h (ix2 j q) = x (ix2 (Net.row4 o ho j) q) :=
  (Cert.LibCat2.slice_apply o 0 x h j q (by have := j.isLt; omega) (by have := q.isLt; omega)).trans
    (congrArg (fun q' => x (ix2 (Net.row4 o ho j) q')) (Fin.ext (Nat.zero_add _)))

/-- Row 0 of an 8 x 128 array read at (u, q). -/
theorem row0_at (x : FVec Ideal S8x128 .f32) (h : S8x128.Slices ![0, 0] S1x128) (u : Fin 1) (q : Fin 128) :
    extractStridedSlice S1x128 ![0, 0] x h (ix2 u q) = x (ix2 (0 : Fin 8) q) :=
  (Cert.LibCat2.slice_apply 0 0 x h u q (by have := u.isLt; omega) (by have := q.isLt; omega)).trans
    (congrArg x (by
      have hu : u.val = 0 := by have := u.isLt; omega
      funext a
      match a with
      | ⟨0, _⟩ => exact Fin.ext (by show 0 + u.val = 0; omega)
      | ⟨1, _⟩ => exact Fin.ext (by show 0 + q.val = q.val; omega)))

/-- The hyperbolic tangent of an array, read at an entry. -/
theorem tanh_at {s : Shape} (v : FVec Ideal s .f32) (i : s.Idx) : (tanh v : FVec Ideal s .f32) i = Ideal.tanh (v i) := rfl

/-- The first row group's product, at entry (p, q). -/
theorem pay3_at (v0 : Vec Ideal S392x128 .bf16) (w : Vec Ideal S512x392 .bf16) (p : Fin 512) (q : Fin 128) :
    k0_pay3 v0 w (ix2 p q) = ∑ k : Fin 392, w (ix2 p k) * v0 (ix2 k q) := by
  unfold k0_pay3 k0_pay2
  simp only [shapeCast_self, matmul_zero_at pd1]

/-- One more row group folded into the running maximum, at entry (p, q). -/
theorem pay4_at (v0 : Vec Ideal S392x128 .bf16) (w : Vec Ideal S512x392 .bf16) (s : Vec Ideal S512x128 .f32) (p : Fin 512) (q : Fin 128) :
    k0_pay4 v0 w s (ix2 p q) = max (s (ix2 p q)) (∑ k : Fin 392, w (ix2 p k) * v0 (ix2 k q)) := by
  unfold k0_pay4 k0_pay2
  simp only [maximumf_apply, shapeCast_self, matmul_zero_at pd1]

/-- One more row group folded into the running maximum, at entry (p, q). -/
theorem pay5_at (v0 : Vec Ideal S392x128 .bf16) (w : Vec Ideal S512x392 .bf16) (s : Vec Ideal S512x128 .f32) (p : Fin 512) (q : Fin 128) :
    k0_pay5 v0 w s (ix2 p q) = max (s (ix2 p q)) (∑ k : Fin 392, w (ix2 p k) * v0 (ix2 k q)) := by
  unfold k0_pay5 k0_pay2
  simp only [maximumf_apply, shapeCast_self, matmul_zero_at pd1]

/-- One more row group folded into the running maximum, at entry (p, q). -/
theorem pay6_at (v0 : Vec Ideal S392x128 .bf16) (w : Vec Ideal S512x392 .bf16) (s : Vec Ideal S512x128 .f32) (p : Fin 512) (q : Fin 128) :
    k0_pay6 v0 w s (ix2 p q) = max (s (ix2 p q)) (∑ k : Fin 392, w (ix2 p k) * v0 (ix2 k q)) := by
  unfold k0_pay6 k0_pay2
  simp only [maximumf_apply, shapeCast_self, matmul_zero_at pd1]

/-- One more row group folded into the running maximum, at entry (p, q). -/
theorem pay7_at (v1 : FVec Ideal S392x128 .bf16) (w : Vec Ideal S512x392 .bf16) (s : Vec Ideal S512x128 .f32) (p : Fin 512) (q : Fin 128) :
    k0_pay7 v1 w s (ix2 p q) = max (s (ix2 p q)) (∑ k : Fin 392, w (ix2 p k) * v1 (ix2 k q)) := by
  unfold k0_pay7
  simp only [maximumf_apply, shapeCast_self, matmul_zero_at pd1]

/-- One more row group folded into the running maximum, at entry (p, q). -/
theorem pay8_at (v1 : FVec Ideal S392x128 .bf16) (w : Vec Ideal S512x392 .bf16) (s : Vec Ideal S512x128 .f32) (p : Fin 512) (q : Fin 128) :
    k0_pay8 v1 w s (ix2 p q) = max (s (ix2 p q)) (∑ k : Fin 392, w (ix2 p k) * v1 (ix2 k q)) := by
  unfold k0_pay8
  simp only [maximumf_apply, shapeCast_self, matmul_zero_at pd1]

/-- One more row group folded into the running maximum, at entry (p, q). -/
theorem pay9_at (v1 : FVec Ideal S392x128 .bf16) (w : Vec Ideal S512x392 .bf16) (s : Vec Ideal S512x128 .f32) (p : Fin 512) (q : Fin 128) :
    k0_pay9 v1 w s (ix2 p q) = max (s (ix2 p q)) (∑ k : Fin 392, w (ix2 p k) * v1 (ix2 k q)) := by
  unfold k0_pay9
  simp only [maximumf_apply, shapeCast_self, matmul_zero_at pd1]

/-- One more row group folded into the running maximum, at entry (p, q). -/
theorem pay10_at (v1 : FVec Ideal S392x128 .bf16) (w : Vec Ideal S512x392 .bf16) (s : Vec Ideal S512x128 .f32) (p : Fin 512) (q : Fin 128) :
    k0_pay10 v1 w s (ix2 p q) = max (s (ix2 p q)) (∑ k : Fin 392, w (ix2 p k) * v1 (ix2 k q)) := by
  unfold k0_pay10
  simp only [maximumf_apply, shapeCast_self, matmul_zero_at pd1]

/-- One more row group folded into the running maximum, at entry (p, q). -/
theorem pay11_at (v1 : FVec Ideal S392x128 .bf16) (w : Vec Ideal S512x392 .bf16) (s : Vec Ideal S512x128 .f32) (p : Fin 512) (q : Fin 128) :
    k0_pay11 v1 w s (ix2 p q) = max (s (ix2 p q)) (∑ k : Fin 392, w (ix2 p k) * v1 (ix2 k q)) := by
  unfold k0_pay11
  simp only [maximumf_apply, shapeCast_self, matmul_zero_at pd1]

/-- From the scratch buffer's final contents `v63` to the third layer before its clamp, at entry (k, q). -/
theorem pay12_at (v63 : Vec Ideal S512x128 .f32) (v64 : Vec Ideal S512x1 .f32) (v69 : Vec Ideal S256x512 .bf16) (v72 : Vec Ideal S256x1 .f32)
    (v84 : Vec Ideal S256x64 .bf16) (v87 : Vec Ideal S256x1 .f32) (k : Fin 256) (q : Fin 128) :
    k0_pay12 v63 v64 v69 v72 v84 v87 (ix2 k q) =
      (∑ j : Fin 64, v84 (ix2 k j) * Net.a2 (fun r => v64 (ix2 r (0 : Fin 1))) (fun r k => v69 (ix2 r k)) (fun r => v72 (ix2 r (0 : Fin 1)))
        (fun r => v63 (ix2 r q)) j) + v87 (ix2 k (0 : Fin 1)) := by
  unfold k0_pay12
  simp only [truncf_apply, maximumf_apply, addf_apply, broadcast_apply, matmul_zero_at pd3,
    group_at 0 (by omega), group_at 64 (by omega), group_at 128 (by omega), group_at 192 (by omega), matmul_zero_at pd2,
    broadcastTo_a1_ab_apply]
  rfl

/-- The third layer's clamp, the last row product, its bias, the clamp and the hyperbolic tangent, at lane q. -/
theorem pay1_at (v89 : FVec Ideal S256x128 .f32) (v92 : Vec Ideal S8x256 .bf16) (v96 : Vec Ideal S1x1 .f32) (u : Fin 1) (q : Fin 128) :
    k0_pay1 v89 Net.z v92 v96 (ix2 u q) =
      Ideal.tanh (max ((∑ k : Fin 256, v92 (ix2 (0 : Fin 8) k) * max (v89 (ix2 k q)) Net.z) + v96 (ix2 (0 : Fin 1) (0 : Fin 1))) Net.z) := by
  unfold k0_pay1
  have hb : broadcastTo S1x128 v96 broadcasts_S1x1_S1x128 (ix2 u q) = v96 (ix2 (0 : Fin 1) (0 : Fin 1)) := by
    have hu : u = 0 := Fin.ext (by have := u.isLt; omega)
    subst hu
    exact broadcastTo_a1_ab_apply v96 broadcasts_S1x1_S1x128 0 q
  simp only [tanh_at, maximumf_apply, addf_apply, hb, row0_at, matmul_zero_at pd4, truncf_apply, broadcast_apply]
  rfl

end Cert.ReferenceIdeal.Body

end
-- ==== Proof.RHost.lean ====
/-
  The feature array the 128-sample program computes on the host before its grid, read at an entry: the input [16384, 2, 14, 14]
  with its last three axes merged, transposed to [392, 16384], and padded by zero entries on every side, which adds nothing.
  Entry (k, n) is feature k of sample n in (channel, row, column) order.  A change of float format is the identity on the
  extended reals.
-/
import proofs.«150856_g2000702224566444_pallasbulk_1152_8_alg».proof.Proof.Gen.ReferenceIdeal.Frame
import proofs.«150856_g2000702224566444_pallasbulk_1152_8_alg».proof.Proof.Spec
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.ReferenceIdeal.Host

open Idealize.ShloMosaic Idealize.ShloMosaic.ValueIdx Idealize.SL.Sem

open Cert.ReferenceIdeal Cert.ReferenceIdeal.Gen Idealize.ShloMosaic.TcCoe

/-- The feature array as a function of the input array. -/
def feats (a0 : FVec Ideal S16384x2x14x14 .f32) : FVec Ideal S392x16384 .bf16 :=
  pad S392x16384 ![0, 0] ![0, 0] ![0, 0]
    (truncf .bf16 (transpose S392x16384 [1, 0] (shapeCast S16384x392 a0 shapeCasts_S16384x2x14x14_S16384x392)
      transposes_S16384x392_S392x16384_1_0) bitsLt_bf16_f32 : FVec Ideal S392x16384 .bf16)
    (sitofp (F := Ideal) .bf16 (constantI S_ 32 0#32)) pads_S392x16384_S392x16384_000_000 h_S_

/-- Entry (k, n) of the feature array. -/
theorem feats_at (a0 : FVec Ideal S16384x2x14x14 .f32) (k : Fin 392) (n : Fin 16384) :
    feats a0 (ix2 k n) = Net.sample a0 n k := by
  unfold feats Net.sample
  refine (pad_apply_of_inside _ _ _ _ _ _ _ (ix2 k n) (ix2 k n) (fun a => match a with
    | ⟨0, _⟩ => by show k.val = 0 + k.val * (0 + 1); omega
    | ⟨1, _⟩ => by show n.val = 0 + n.val * (0 + 1); omega)).trans ?_
  rw [truncf_apply]
  refine (transpose_apply _ _ _ (ix2 k n) (ix2 n k) (fun b => match b with
    | ⟨0, _⟩ => rfl
    | ⟨1, _⟩ => rfl)).trans ?_
  refine shapeCast_apply _ _ _ _ ?_
  rw [Shape.rowMajor_val_four, Shape.rowMajor_val_two]
  show ((n.val * 2 + k.val / 196) * 14 + (k.val % 196) / 14) * 14 + k.val % 14 = n.val * 392 + k.val
  have := k.isLt
  omega

variable (m : (ℓ : Loc nD τ sig) → Buf (Elt Ideal) ℓ)

/-- The region finds the feature array at `feats` of the input array. -/
theorem v3_eq (c : Dev nD) : V m c main_v3 = feats (m ((c : Thread nD τ).loc main_arg0)) := by
  dsimp only [V, V0]
  simp only [hostOps0, hostOps0_1, List.flatten_cons, List.flatten_nil, List.append_nil, List.cons_append, List.nil_append]
  after_results
  rfl

end Cert.ReferenceIdeal.Host

end
-- ==== Proof.RFinal.lean ====
/-
  The 128-sample program's output row after its grid has run.  Within one grid point the scratch buffer is written and read
  back nine times; each read returns the last value stored, so the buffer's final contents are the nine row groups of the
  first layer folded by max, and the body's output block at lane q is the network over column q of the feature block.  Grid
  point t works on samples 128·t … 128·t + 127 and writes back lanes 128·t … of the output row; the 128 blocks tile the row, so
  the row ends at the function of Spec.lean.
-/
import proofs.«150856_g2000702224566444_pallasbulk_1152_8_alg».proof.Proof.Gen.ReferenceIdeal.Frame
import proofs.«150856_g2000702224566444_pallasbulk_1152_8_alg».proof.Proof.RBody
import proofs.«150856_g2000702224566444_pallasbulk_1152_8_alg».proof.Proof.RHost
import proofs.«150856_g2000702224566444_pallasbulk_1152_8_alg».proof.Proof.Spec
import Idealize.ShloMosaic.Lib.ValueIdx
import Idealize.ShloMosaic.Lib.Pipeline.Value
import Idealize.ShloMosaic.PureOps.Ideal

set_option maxRecDepth 16384

noncomputable section

namespace Cert.ReferenceIdeal.Final

open Idealize.ShloMosaic Idealize.ShloMosaic.ValueIdx Idealize.SL.Sem

open Cert.ReferenceIdeal Cert.ReferenceIdeal.Gen Idealize.ShloMosaic.TcCoe Idealize.ShloMosaic.Tactic
open Idealize.ShloMosaic.Pipeline (Dat)

theorem hz : (![0, 0] : Fin 2 → Nat) = fun _ => 0 := funext fun a => by fin_cases a <;> rfl

/-- A 512-row tile of the weights, loaded from row `o`, read at (r, k). -/
theorem tile_at (x1 : Vec Ideal S4608x392 .bf16) (o : ℕ) (ho : o + 512 ≤ 4608)
    (inb : ∀ a, (![o, 0] : Fin 2 → Nat) a + S512x392.size a ≤ S4608x392.size a) (r : Fin 512) (k : Fin 392) :
    View.ld x1 (Rect.unit (s := S4608x392) ![o, 0] S512x392.size inb) (ix2 r k) = x1 (ix2 (Net.row o ho r) k) := by
  show x1 ((Rect.unit (s := S4608x392) ![o, 0] S512x392.size inb).emb (ix2 r k)) = _
  refine congrArg x1 (funext fun a => Fin.ext ?_)
  match a with
  | ⟨0, _⟩ => show o + 1 * r.val = o + r.val; omega
  | ⟨1, _⟩ => show 0 + 1 * k.val = k.val; omega

/-- What the body leaves in its output block, as one term of the blocks it reads: every read of the scratch buffer returns
    the value stored last. -/
theorem out_pay (c : Dev nD) (i : grid0.Coords) (arg1 : Memref sig .tc .vmem S392x128 .bf16) (harg1 : arg1.IsWhole) (arg2 : Memref sig .tc .vmem S4608x392 .bf16) (harg2 : arg2.IsWhole) (arg3 : Memref sig .tc .vmem S512x1 .f32) (harg3 : arg3.IsWhole) (arg4 : Memref sig .tc .vmem S256x512 .bf16) (harg4 : arg4.IsWhole) (arg5 : Memref sig .tc .vmem S256x1 .f32) (harg5 : arg5.IsWhole) (arg6 : Memref sig .tc .vmem S256x64 .bf16) (harg6 : arg6.IsWhole) (arg7 : Memref sig .tc .vmem S256x1 .f32) (harg7 : arg7.IsWhole) (arg8 : Memref sig .tc .vmem S8x256 .bf16) (harg8 : arg8.IsWhole) (arg9 : Memref sig .tc .vmem S1x1 .f32) (harg9 : arg9.IsWhole) (arg10 : Memref sig .tc .vmem S1x128 .f32) (harg10 : arg10.IsWhole) (arg11 : Memref sig .tc .vmem S512x128 .f32) (harg11 : arg11.IsWhole)
    (x0 : Vec Ideal S392x128 .bf16) (x1 : Vec Ideal S4608x392 .bf16) (x2 : Vec Ideal S512x1 .f32) (x3 : Vec Ideal S256x512 .bf16) (x4 : Vec Ideal S256x1 .f32) (x5 : Vec Ideal S256x64 .bf16) (x6 : Vec Ideal S256x1 .f32) (x7 : Vec Ideal S8x256 .bf16) (x8 : Vec Ideal S1x1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 =
      k0_pay1 (k0_pay12 (k0_pay11 (k0_pay2 x0) (View.ld x1 (Rect.unit (s := S4608x392) ![4096, 0] S512x392.size inb_S4608x392_S512x392_4096_0)) (k0_pay10 (k0_pay2 x0) (View.ld x1 (Rect.unit (s := S4608x392) ![3584, 0] S512x392.size inb_S4608x392_S512x392_3584_0)) (k0_pay9 (k0_pay2 x0) (View.ld x1 (Rect.unit (s := S4608x392) ![3072, 0] S512x392.size inb_S4608x392_S512x392_3072_0)) (k0_pay8 (k0_pay2 x0) (View.ld x1 (Rect.unit (s := S4608x392) ![2560, 0] S512x392.size inb_S4608x392_S512x392_2560_0)) (k0_pay7 (k0_pay2 x0) (View.ld x1 (Rect.unit (s := S4608x392) ![2048, 0] S512x392.size inb_S4608x392_S512x392_2048_0)) (k0_pay6 x0 (View.ld x1 (Rect.unit (s := S4608x392) ![1536, 0] S512x392.size inb_S4608x392_S512x392_1536_0)) (k0_pay5 x0 (View.ld x1 (Rect.unit (s := S4608x392) ![1024, 0] S512x392.size inb_S4608x392_S512x392_1024_0)) (k0_pay4 x0 (View.ld x1 (Rect.unit (s := S4608x392) ![512, 0] S512x392.size inb_S4608x392_S512x392_512_0)) (k0_pay3 x0 (View.ld x1 (Rect.unit (s := S4608x392) ![0, 0] S512x392.size inb_S4608x392_S512x392_0_0))))))))))) x2 x3 x4 x5 x6) Net.z x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz]
  simp only [View.readCov_cons_toLoadRect, View.readAt_eq_ld, Memref.IsWhole.read_unread, View.ld_unit_zero (S := S392x128) hz,
    View.ld_unit_zero (S := S512x1) hz, View.ld_unit_zero (S := S256x512) hz,
    View.ld_unit_zero (S := S256x1) hz, View.ld_unit_zero (S := S256x64) hz, View.ld_unit_zero (S := S8x256) hz,
    View.ld_unit_zero (S := S1x1) hz, View.ld_unit_zero (S := S512x128) hz]
  rfl

/-- The body's output block at lane q: the network over column q of the feature block and the rows of the parameter blocks. -/
theorem out_at (c : Dev nD) (i : grid0.Coords) (arg1 : Memref sig .tc .vmem S392x128 .bf16) (harg1 : arg1.IsWhole) (arg2 : Memref sig .tc .vmem S4608x392 .bf16) (harg2 : arg2.IsWhole) (arg3 : Memref sig .tc .vmem S512x1 .f32) (harg3 : arg3.IsWhole) (arg4 : Memref sig .tc .vmem S256x512 .bf16) (harg4 : arg4.IsWhole) (arg5 : Memref sig .tc .vmem S256x1 .f32) (harg5 : arg5.IsWhole) (arg6 : Memref sig .tc .vmem S256x64 .bf16) (harg6 : arg6.IsWhole) (arg7 : Memref sig .tc .vmem S256x1 .f32) (harg7 : arg7.IsWhole) (arg8 : Memref sig .tc .vmem S8x256 .bf16) (harg8 : arg8.IsWhole) (arg9 : Memref sig .tc .vmem S1x1 .f32) (harg9 : arg9.IsWhole) (arg10 : Memref sig .tc .vmem S1x128 .f32) (harg10 : arg10.IsWhole) (arg11 : Memref sig .tc .vmem S512x128 .f32) (harg11 : arg11.IsWhole)
    (x0 : Vec Ideal S392x128 .bf16) (x1 : Vec Ideal S4608x392 .bf16) (x2 : Vec Ideal S512x1 .f32) (x3 : Vec Ideal S256x512 .bf16) (x4 : Vec Ideal S256x1 .f32) (x5 : Vec Ideal S256x64 .bf16) (x6 : Vec Ideal S256x1 .f32) (x7 : Vec Ideal S8x256 .bf16) (x8 : Vec Ideal S1x1 .f32) (u : Fin 1) (q : Fin 128) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 (ix2 u q) =
      Net.rest (fun r => x2 (ix2 r (0 : Fin 1))) (fun r k => x3 (ix2 r k)) (fun r => x4 (ix2 r (0 : Fin 1))) (fun r j => x5 (ix2 r j))
        (fun r => x6 (ix2 r (0 : Fin 1))) (fun k => x7 (ix2 (0 : Fin 8) k)) (x8 (ix2 (0 : Fin 1) (0 : Fin 1)))
        (Net.pool1 (fun r k => x1 (ix2 r k)) (fun k => x0 (ix2 k q))) := by
  rw [out_pay]
  rw [Body.pay1_at]
  unfold Net.rest Net.pre Net.a3
  have hP : ∀ r : Fin 512, (k0_pay11 (k0_pay2 x0) (View.ld x1 (Rect.unit (s := S4608x392) ![4096, 0] S512x392.size inb_S4608x392_S512x392_4096_0)) (k0_pay10 (k0_pay2 x0) (View.ld x1 (Rect.unit (s := S4608x392) ![3584, 0] S512x392.size inb_S4608x392_S512x392_3584_0)) (k0_pay9 (k0_pay2 x0) (View.ld x1 (Rect.unit (s := S4608x392) ![3072, 0] S512x392.size inb_S4608x392_S512x392_3072_0)) (k0_pay8 (k0_pay2 x0) (View.ld x1 (Rect.unit (s := S4608x392) ![2560, 0] S512x392.size inb_S4608x392_S512x392_2560_0)) (k0_pay7 (k0_pay2 x0) (View.ld x1 (Rect.unit (s := S4608x392) ![2048, 0] S512x392.size inb_S4608x392_S512x392_2048_0)) (k0_pay6 x0 (View.ld x1 (Rect.unit (s := S4608x392) ![1536, 0] S512x392.size inb_S4608x392_S512x392_1536_0)) (k0_pay5 x0 (View.ld x1 (Rect.unit (s := S4608x392) ![1024, 0] S512x392.size inb_S4608x392_S512x392_1024_0)) (k0_pay4 x0 (View.ld x1 (Rect.unit (s := S4608x392) ![512, 0] S512x392.size inb_S4608x392_S512x392_512_0)) (k0_pay3 x0 (View.ld x1 (Rect.unit (s := S4608x392) ![0, 0] S512x392.size inb_S4608x392_S512x392_0_0))))))))))) (ix2 r q) = Net.pool1 (fun r k => x1 (ix2 r k)) (fun k => x0 (ix2 k q)) r := fun r => by
    rw [Body.pay11_at, Body.pay10_at, Body.pay9_at, Body.pay8_at, Body.pay7_at, Body.pay6_at, Body.pay5_at, Body.pay4_at, Body.pay3_at]
    unfold Net.pool1 Net.tap k0_pay2
    simp only [shapeCast_self, tile_at x1 0 (by omega), tile_at x1 512 (by omega), tile_at x1 1024 (by omega), tile_at x1 1536 (by omega), tile_at x1 2048 (by omega), tile_at x1 2560 (by omega), tile_at x1 3072 (by omega), tile_at x1 3584 (by omega), tile_at x1 4096 (by omega)]
  simp only [Body.pay12_at, hP]

/-- The printed index maps, decided over the grid: the feature window and the output window move one block per point along
    the sample axis; the parameter windows stay at block (0, 0). -/
theorem idx_facts : ∀ t : Fin cfg0.N, win0_0.index t (0 : Fin 2) = 0 ∧ win0_0.index t (1 : Fin 2) = t.val
    ∧ win0_9.index t (0 : Fin 2) = 0 ∧ win0_9.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem N128 : cfg0.N = 128 := N_0

variable (m : (ℓ : Loc nD τ sig) → Buf (Elt Ideal) ℓ) (ρ : Dev nD → PrngReg)

/-- The feature block at point t, entry (k, q): the feature array at (k, 128·t + q). -/
theorem blk0_at (c : Dev nD) (t : Fin cfg0.N) (k : Fin 392) (q : Fin 128) (hn : t.val * 128 + q.val < 16384) :
    iblk m c 0 t (ix2 k q) = V m c main_v3 (ix2 k (⟨t.val * 128 + q.val, hn⟩ : Fin 16384)) := by
  obtain ⟨e0, e1, -⟩ := idx_facts t
  show V m c main_v3 (((cfg0.win 0).blk t).view.emb (ix2 k q)) = _
  refine congrArg (V m c main_v3) (funext fun a => Fin.ext ?_)
  match a with
  | ⟨0, _⟩ => show win0_0.index t (0 : Fin 2) * 392 + 1 * k.val = k.val; omega
  | ⟨1, _⟩ => show win0_0.index t (1 : Fin 2) * 128 + 1 * q.val = t.val * 128 + q.val; omega

/-- Window 1's block at any point is its whole array. -/
theorem blk1_at (c : Dev nD) (t : Fin cfg0.N) (y : S4608x392.Idx) : iblk m c 1 t y = V m c main_arg1 y := by
  have h := idx_facts t
  show V m c main_arg1 (((cfg0.win 1).blk t).view.emb y) = _
  refine congrArg (V m c main_arg1) (funext fun a => Fin.ext ?_)
  match a with
  | ⟨0, _⟩ => show win0_1.index t (0 : Fin 2) * 4608 + 1 * (y 0).val = (y 0).val; omega
  | ⟨1, _⟩ => show win0_1.index t (1 : Fin 2) * 392 + 1 * (y 1).val = (y 1).val; omega

/-- Window 2's block at any point is its whole array. -/
theorem blk2_at (c : Dev nD) (t : Fin cfg0.N) (y : S512x1.Idx) : iblk m c 2 t y = V m c main_arg2 y := by
  have h := idx_facts t
  show V m c main_arg2 (((cfg0.win 2).blk t).view.emb y) = _
  refine congrArg (V m c main_arg2) (funext fun a => Fin.ext ?_)
  match a with
  | ⟨0, _⟩ => show win0_2.index t (0 : Fin 2) * 512 + 1 * (y 0).val = (y 0).val; omega
  | ⟨1, _⟩ => show win0_2.index t (1 : Fin 2) * 1 + 1 * (y 1).val = (y 1).val; omega

/-- Window 3's block at any point is its whole array. -/
theorem blk3_at (c : Dev nD) (t : Fin cfg0.N) (y : S256x512.Idx) : iblk m c 3 t y = V m c main_arg3 y := by
  have h := idx_facts t
  show V m c main_arg3 (((cfg0.win 3).blk t).view.emb y) = _
  refine congrArg (V m c main_arg3) (funext fun a => Fin.ext ?_)
  match a with
  | ⟨0, _⟩ => show win0_3.index t (0 : Fin 2) * 256 + 1 * (y 0).val = (y 0).val; omega
  | ⟨1, _⟩ => show win0_3.index t (1 : Fin 2) * 512 + 1 * (y 1).val = (y 1).val; omega

/-- Window 4's block at any point is its whole array. -/
theorem blk4_at (c : Dev nD) (t : Fin cfg0.N) (y : S256x1.Idx) : iblk m c 4 t y = V m c main_arg4 y := by
  have h := idx_facts t
  show V m c main_arg4 (((cfg0.win 4).blk t).view.emb y) = _
  refine congrArg (V m c main_arg4) (funext fun a => Fin.ext ?_)
  match a with
  | ⟨0, _⟩ => show win0_4.index t (0 : Fin 2) * 256 + 1 * (y 0).val = (y 0).val; omega
  | ⟨1, _⟩ => show win0_4.index t (1 : Fin 2) * 1 + 1 * (y 1).val = (y 1).val; omega

/-- Window 5's block at any point is its whole array. -/
theorem blk5_at (c : Dev nD) (t : Fin cfg0.N) (y : S256x64.Idx) : iblk m c 5 t y = V m c main_arg5 y := by
  have h := idx_facts t
  show V m c main_arg5 (((cfg0.win 5).blk t).view.emb y) = _
  refine congrArg (V m c main_arg5) (funext fun a => Fin.ext ?_)
  match a with
  | ⟨0, _⟩ => show win0_5.index t (0 : Fin 2) * 256 + 1 * (y 0).val = (y 0).val; omega
  | ⟨1, _⟩ => show win0_5.index t (1 : Fin 2) * 64 + 1 * (y 1).val = (y 1).val; omega

/-- Window 6's block at any point is its whole array. -/
theorem blk6_at (c : Dev nD) (t : Fin cfg0.N) (y : S256x1.Idx) : iblk m c 6 t y = V m c main_arg6 y := by
  have h := idx_facts t
  show V m c main_arg6 (((cfg0.win 6).blk t).view.emb y) = _
  refine congrArg (V m c main_arg6) (funext fun a => Fin.ext ?_)
  match a with
  | ⟨0, _⟩ => show win0_6.index t (0 : Fin 2) * 256 + 1 * (y 0).val = (y 0).val; omega
  | ⟨1, _⟩ => show win0_6.index t (1 : Fin 2) * 1 + 1 * (y 1).val = (y 1).val; omega

/-- Window 7's block at any point is its whole array. -/
theorem blk7_at (c : Dev nD) (t : Fin cfg0.N) (y : S8x256.Idx) : iblk m c 7 t y = V m c main_arg7 y := by
  have h := idx_facts t
  show V m c main_arg7 (((cfg0.win 7).blk t).view.emb y) = _
  refine congrArg (V m c main_arg7) (funext fun a => Fin.ext ?_)
  match a with
  | ⟨0, _⟩ => show win0_7.index t (0 : Fin 2) * 8 + 1 * (y 0).val = (y 0).val; omega
  | ⟨1, _⟩ => show win0_7.index t (1 : Fin 2) * 256 + 1 * (y 1).val = (y 1).val; omega

/-- Window 8's block at any point is its whole array. -/
theorem blk8_at (c : Dev nD) (t : Fin cfg0.N) (y : S1x1.Idx) : iblk m c 8 t y = V m c main_arg8 y := by
  have h := idx_facts t
  show V m c main_arg8 (((cfg0.win 8).blk t).view.emb y) = _
  refine congrArg (V m c main_arg8) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- The output row as a function of the argument arrays at launch. -/
def row (c : Dev nD) : S1x16384.Idx → EReal :=
  Net.rowOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What point t writes back is block t of the output row. -/
theorem flushed_eq (c : Dev nD) (t : Fin cfg0.N) :
    (dats m 0 c).flushed 9 t = ((cfg0.win 9).blk t).view.read (Elt Ideal) (row m c) := by
  show (cfg0.win 9).cut (grid0.coords t) ((dats m 0 c).after 9 t) = _
  rw [after0_9]
  unfold outsAt0
  funext j
  obtain ⟨u, q, rfl⟩ : ∃ (u : Fin 1) (q : Fin 128), j = ix2 u q := ⟨j 0, j 1, eq_ix2 j⟩
  have ht : t.val < 128 := lt_of_lt_of_eq t.isLt N128
  have hn : t.val * 128 + q.val < 16384 := by have := q.isLt; omega
  obtain ⟨-, -, e2, e3, -⟩ := idx_facts t
  have hemb : ((cfg0.win 9).blk t).view.emb (ix2 u q) = ix2 (0 : Fin 1) (⟨t.val * 128 + q.val, hn⟩ : Fin 16384) := by
    funext a; apply Fin.ext
    match a with
    | ⟨0, _⟩ => show win0_9.index t (0 : Fin 2) * 1 + 1 * u.val = 0; have := u.isLt; omega
    | ⟨1, _⟩ => show win0_9.index t (1 : Fin 2) * 128 + 1 * q.val = t.val * 128 + q.val; omega
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) (ix2 u q) = row m c (((cfg0.win 9).blk t).view.emb (ix2 u q))
  rw [hemb]
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) u q).trans ?_
  unfold row Net.rowOut
  have e2 : (fun r : Fin 512 => iblk m c 2 t (ix2 r (0 : Fin 1))) = fun r => m ((c : Thread nD τ).loc main_arg2) (ix2 r (0 : Fin 1)) :=
    funext fun r => (blk2_at m c t _).trans (congrFun (V_main_arg2 m c) _)
  have e3 : (fun (r : Fin 256) (k : Fin 512) => iblk m c 3 t (ix2 r k)) = fun r k => m ((c : Thread nD τ).loc main_arg3) (ix2 r k) :=
    funext fun r => funext fun k => (blk3_at m c t _).trans (congrFun (V_main_arg3 m c) _)
  have e4 : (fun r : Fin 256 => iblk m c 4 t (ix2 r (0 : Fin 1))) = fun r => m ((c : Thread nD τ).loc main_arg4) (ix2 r (0 : Fin 1)) :=
    funext fun r => (blk4_at m c t _).trans (congrFun (V_main_arg4 m c) _)
  have e5 : (fun (r : Fin 256) (j : Fin 64) => iblk m c 5 t (ix2 r j)) = fun r j => m ((c : Thread nD τ).loc main_arg5) (ix2 r j) :=
    funext fun r => funext fun j => (blk5_at m c t _).trans (congrFun (V_main_arg5 m c) _)
  have e6 : (fun r : Fin 256 => iblk m c 6 t (ix2 r (0 : Fin 1))) = fun r => m ((c : Thread nD τ).loc main_arg6) (ix2 r (0 : Fin 1)) :=
    funext fun r => (blk6_at m c t _).trans (congrFun (V_main_arg6 m c) _)
  have e7 : (fun k : Fin 256 => iblk m c 7 t (ix2 (0 : Fin 8) k)) = fun k => m ((c : Thread nD τ).loc main_arg7) (ix2 (0 : Fin 8) k) :=
    funext fun k => (blk7_at m c t _).trans (congrFun (V_main_arg7 m c) _)
  have e8 : iblk m c 8 t (ix2 (0 : Fin 1) (0 : Fin 1)) = m ((c : Thread nD τ).loc main_arg8) (ix2 (0 : Fin 1) (0 : Fin 1)) :=
    (blk8_at m c t _).trans (congrFun (V_main_arg8 m c) _)
  have eP : Net.pool1 (fun r k => iblk m c 1 t (ix2 r k)) (fun k => iblk m c 0 t (ix2 k q))
      = Net.pool1 (fun r k => m ((c : Thread nD τ).loc main_arg1) (ix2 r k))
          (Net.sample (m ((c : Thread nD τ).loc main_arg0)) (⟨t.val * 128 + q.val, hn⟩ : Fin 16384)) := by
    have eW : (fun (r : Fin 4608) (k : Fin 392) => iblk m c 1 t (ix2 r k)) = fun r k => m ((c : Thread nD τ).loc main_arg1) (ix2 r k) :=
      funext fun r => funext fun k => (blk1_at m c t _).trans (congrFun (V_main_arg1 m c) _)
    have eX : (fun k : Fin 392 => iblk m c 0 t (ix2 k q))
        = Net.sample (m ((c : Thread nD τ).loc main_arg0)) (⟨t.val * 128 + q.val, hn⟩ : Fin 16384) :=
      funext fun k => ((blk0_at m c t k q hn).trans (congrFun (Host.v3_eq m c) _)).trans (Host.feats_at _ k _)
    rw [eW, eX]
  exact Net.rest_congr e2 e3 e4 e5 e6 e7 e8 eP

/-- An index of the row is in point t's block iff its lane is one of the block's. -/
theorem mem_blk (t : Fin cfg0.N) (i : S1x16384.Idx) :
    i ∈ ((cfg0.win 9).blk t).view.set ↔ ∀ a : Fin 2, win0_9.index t a * S1x128.size a ≤ (i a).val ∧ (i a).val < win0_9.index t a * S1x128.size a + S1x128.size a := by
  show i ∈ ((View.whole main_v4).slice (win0_9.rect t)).set ↔ _
  rw [View.set_slice_whole, Rect.mem_set_unit]
  exact Iff.rfl

/-- The 128 blocks tile the row, so after the grid the output row is `row`. -/
theorem final (c : Dev nD) : (dats m 0 c).arrAt 9 cfg0.N = row m c :=
  (dats m 0 c).arrAt_eq_of_cover 9 (row m c) (fun t _ => flushed_eq m c t) fun i => by
    have hi1 : (i 1).val < 16384 := (i 1).isLt
    have hi0 : (i 0).val < 1 := (i 0).isLt
    refine ⟨⟨(i 1).val / 128, by rw [N128]; omega⟩, flush0_9 _, ?_⟩
    rw [mem_blk]
    obtain ⟨-, -, e2, e3, -⟩ := idx_facts ⟨(i 1).val / 128, by rw [N128]; omega⟩
    intro a
    match a with
    | ⟨0, _⟩ => show win0_9.index _ (0 : Fin 2) * 1 ≤ (i 0).val ∧ (i 0).val < win0_9.index _ (0 : Fin 2) * 1 + 1; rw [e2]; omega
    | ⟨1, _⟩ => show win0_9.index _ (1 : Fin 2) * 128 ≤ (i 1).val ∧ (i 1).val < win0_9.index _ (1 : Fin 2) * 128 + 128; rw [e3]; show (i 1).val / 128 * 128 ≤ (i 1).val ∧ (i 1).val < (i 1).val / 128 * 128 + 128; omega

end Cert.ReferenceIdeal.Final

end
-- ==== Proof.RRun.lean ====
/-
  The 128-sample program's run, read: after the grid the host reads the output row as a vector and the vector as a column;
  the result is that column of the row of Spec.lean, and the nine argument arrays end as they were launched.
-/
import proofs.«150856_g2000702224566444_pallasbulk_1152_8_alg».proof.Proof.RFinal
import Idealize.ShloMosaic.Lib.StableHlo.Run

set_option maxRecDepth 16384

noncomputable section

namespace Cert.ReferenceIdeal.Run

open Idealize.ShloMosaic Idealize.ShloMosaic.ValueIdx Idealize.SL.Sem

open Cert.ReferenceIdeal Cert.ReferenceIdeal.Gen Idealize.ShloMosaic.TcCoe
open Idealize.ShloMosaic.Pipeline (Dat)

variable (m : (ℓ : Loc nD τ sig) → Buf (Elt Ideal) ℓ) (ρ : Dev nD → PrngReg)

/-- The host operations after the grid leave the result at the column of the output row. -/
theorem tail_eq (c : Dev nD) :
    Pipeline.afterTail₀ cfgs (dats m) 0 (V0 m) [hostOps1] c main_v6
      = Net.colOut (Final.row m c) shapeCasts_S1x16384_S16384 shapeCasts_S16384_S16384x1 := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v4)
      = Final.row m c :=
    (Pipeline.withArrays_arr spec0 launch0.win.arr_inj c _ _ 9).trans (Final.final m c)
  rw [hw]
  rfl

/-- Every weakly fair execution terminates with the result at the column of the output row and the arguments unchanged. -/
theorem run : θ_run defs (onTc (τ := τ) (main (F := Ideal))) ⟨m, fun _ => 0, ρ⟩ (fun r => ∀ c : Dev nD,
      r.2.mem ((c.tc : Thread nD τ).loc main_v6) = Net.colOut (Final.row m c) shapeCasts_S1x16384_S16384 shapeCasts_S16384_S16384x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩) (run_main m ρ)

end Cert.ReferenceIdeal.Run

end
-- ==== Proof.lean ====
/-
  The five claims about a small convolutional network evaluated on 16384 samples of 392 features each.

  Both idealized programs compute, for sample n, the same function of the sample's features and the eight parameter arrays
  (Proof/Net.lean, Proof/Spec.lean): nine 512-row products against the features folded by max, a bias and a clamp at zero, a
  256-row product with bias folded by max over four row groups and clamped, a 256-row product with bias clamped, one row
  product with bias clamped, and the hyperbolic tangent.  One program handles 256 samples per grid point, lays the features
  out as (row, column, channel) and permutes the first layer's weight columns to match; the other handles 128 samples per
  grid point, keeps the features in (channel, row, column) order and holds the running maximum in a scratch buffer.  On the
  extended reals a finite sum may be re-indexed along a bijection, so the two first layers agree (Net.pool1_perm); everything
  after the first layer is the same expression.  Each program's output row is read off its run block by block
  (Proof/KFinal.lean, Proof/RFinal.lean), and the host reads the row as a column (Proof/KRun.lean, Proof/RRun.lean).  No
  finiteness of the inputs is used.  The word-level program was printed into its idealization with no rewrite, so that
  claim is trivial; the three frames are the generated ones.
-/
import proofs.«150856_g2000702224566444_pallasbulk_1152_8_alg».proof.Defs
import proofs.«150856_g2000702224566444_pallasbulk_1152_8_alg».proof.Proof.Gen.Kernel
import proofs.«150856_g2000702224566444_pallasbulk_1152_8_alg».proof.Proof.Gen.Kernel.Frame
import proofs.«150856_g2000702224566444_pallasbulk_1152_8_alg».proof.Proof.Gen.KernelIdeal
import proofs.«150856_g2000702224566444_pallasbulk_1152_8_alg».proof.Proof.Gen.KernelIdeal.Frame
import proofs.«150856_g2000702224566444_pallasbulk_1152_8_alg».proof.Proof.Gen.ReferenceIdeal
import proofs.«150856_g2000702224566444_pallasbulk_1152_8_alg».proof.Proof.Gen.ReferenceIdeal.Frame
import proofs.«150856_g2000702224566444_pallasbulk_1152_8_alg».proof.Proof.Gen.Pre_finite_inputs
import proofs.«150856_g2000702224566444_pallasbulk_1152_8_alg».proof.Proof.KRun
import proofs.«150856_g2000702224566444_pallasbulk_1152_8_alg».proof.Proof.RRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Run from memories that agree on the nine arguments, both idealized programs end with the column of the same output row. -/
theorem algebraic : Cert.algebraic_KernelIdeal_ReferenceIdeal := by
  intro m ρ m' ρ' _ hagree
  refine ⟨fun c => Cert.Net.colOut (Cert.KernelIdeal.Final.row m c) Cert.KernelIdeal.Facts₀.shapeCasts_S1x16384_S16384
    Cert.KernelIdeal.Facts₀.shapeCasts_S16384_S16384x1, Cert.KernelIdeal.Run.run m ρ, ?_⟩
  refine (θ_run Cert.ReferenceIdeal.defs _ _).mono (fun _ h c => ⟨(h c).1.trans ?_, (h c).2⟩)
    (Cert.ReferenceIdeal.Run.run m' ρ')
  obtain ⟨h0, h1, h2, h3, h4, h5, h6, h7, h8⟩ := hagree c
  unfold Cert.ReferenceIdeal.Final.row Cert.KernelIdeal.Final.row
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
